-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4 : Shape := ⟨1, ![4]⟩
abbrev S4096x4096 : Shape := ⟨2, ![4096, 4096]⟩
abbrev S4096 : Shape := ⟨1, ![4096]⟩
abbrev S8x4096x64 : Shape := ⟨3, ![8, 4096, 64]⟩
abbrev S8x64x4096 : Shape := ⟨3, ![8, 64, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S8x4096x64 : S_.BroadcastsInDim S8x4096x64 (![] : Fin 0 → Fin S8x4096x64.rank)
  reducesTo_S8x4096x64_S_d0_1_2 : S8x4096x64.ReducesTo [0, 1, 2] S_
  bcast_S_S8x64x4096 : S_.BroadcastsInDim S8x64x4096 (![] : Fin 0 → Fin S8x64x4096.rank)
  reducesTo_S8x64x4096_S_d0_1_2 : S8x64x4096.ReducesTo [0, 1, 2] S_
  bcast_S_S4 : S_.BroadcastsInDim S4 (![] : Fin 0 → Fin S4.rank)
  reducesTo_S4_S_d0 : S4.ReducesTo [0] S_

variable [Facts]

def fn_part1 {F : FTy → Type} [FloatOps F] (main_arg1 : IVec S4 32) (main_arg5 : FVec F S8x64x4096 .f32) (main_v13 : IVec S_ 1) (main_v16 : IVec S8x4096x64 1) : IVec S_ 1 :=
  let main_c_5 : IVec S_ 1 := constantI S_ 1 1#1
  let main_v17 : IVec S_ 1 := (fun x v => Host.reduce IntOp.andi x v reducesTo_S8x4096x64_S_d0_1_2 h_S_) main_v16 main_c_5
  let main_v18 : IVec S_ 1 := andi main_v13 main_v17
  let main_v19 : FVec F S8x64x4096 .f32 := Host.absf main_arg5
  let main_cst_6 : FVec F S_ .f32 := constant S_ .f32 0x7F800000#32
  let main_v20 : FVec F S8x64x4096 .f32 := broadcastInDim S8x64x4096 ![] bcast_S_S8x64x4096 main_cst_6
  let main_v21 : IVec S8x64x4096 1 := cmpf .olt main_v19 main_v20
  let main_c_7 : IVec S_ 1 := constantI S_ 1 1#1
  let main_v22 : IVec S_ 1 := (fun x v => Host.reduce IntOp.andi x v reducesTo_S8x64x4096_S_d0_1_2 h_S_) main_v21 main_c_7
  let main_v23 : IVec S_ 1 := andi main_v18 main_v22
  let main_c_8 : IVec S_ 32 := constantI S_ 32 0#32
  let main_v24 : IVec S4 32 := broadcastInDim S4 ![] bcast_S_S4 main_c_8
  let main_v25 : IVec S4 1 := cmpi .sge main_arg1 main_v24
  let main_c_9 : IVec S_ 1 := constantI S_ 1 1#1
  let main_v26 : IVec S_ 1 := (fun x v => Host.reduce IntOp.andi x v reducesTo_S4_S_d0 h_S_) main_v25 main_c_9
  let main_v27 : IVec S_ 1 := andi main_v23 main_v26
  let main_c_10 : IVec S_ 32 := constantI S_ 32 8#32
  let main_v28 : IVec S4 32 := broadcastInDim S4 ![] bcast_S_S4 main_c_10
  let main_v29 : IVec S4 1 := cmpi .slt main_arg1 main_v28
  let main_c_11 : IVec S_ 1 := constantI S_ 1 1#1
  let main_v30 : IVec S_ 1 := (fun x v => Host.reduce IntOp.andi x v reducesTo_S4_S_d0 h_S_) main_v29 main_c_11
  let main_v31 : IVec S_ 1 := andi main_v27 main_v30
  main_v31

def fn {F : FTy → Type} [FloatOps F] (main_arg0 : FVec F S4x2048x4096 .f32) (main_arg1 : IVec S4 32) (main_arg2 : FVec F S4096x4096 .f32) (main_arg3 : FVec F S4096 .f32) (main_arg4 : FVec F S8x4096x64 .f32) (main_arg5 : FVec F S8x64x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8x4096x64 .f32 := Host.absf main_arg4
  let main_cst_4 : FVec F S_ .f32 := constant S_ .f32 0x7F800000#32
  let main_v15 : FVec F S8x4096x64 .f32 := broadcastInDim S8x4096x64 ![] bcast_S_S8x4096x64 main_cst_4
  let main_v16 : IVec S8x4096x64 1 := cmpf .olt main_v14 main_v15
  fn_part1 (F := F) main_arg1 main_arg5 main_v13 main_v16
-- ==== Kernel.lean ====
abbrev S4x2048x4096 : Shape := ⟨3, ![4, 2048, 4096]⟩
abbrev S4 : Shape := ⟨1, ![4]⟩
abbrev S4096x4096 : Shape := ⟨2, ![4096, 4096]⟩
abbrev S4096 : Shape := ⟨1, ![4096]⟩
abbrev S8x4096x64 : Shape := ⟨3, ![8, 4096, 64]⟩
abbrev S8x64x4096 : Shape := ⟨3, ![8, 64, 4096]⟩
abbrev S8192x4096 : Shape := ⟨2, ![8192, 4096]⟩
abbrev S1x4096 : Shape := ⟨2, ![1, 4096]⟩
abbrev S4x2 : Shape := ⟨2, ![4, 2]⟩
abbrev S8 : Shape := ⟨1, ![8]⟩
abbrev S1024x4096 : Shape := ⟨2, ![1024, 4096]⟩
abbrev S256x4096 : Shape := ⟨2, ![256, 4096]⟩
abbrev S1x256 : Shape := ⟨2, ![1, 256]⟩
abbrev S1x4096x64 : Shape := ⟨3, ![1, 4096, 64]⟩
abbrev S1 : Shape := ⟨1, ![1]⟩
abbrev S1x64x256 : Shape := ⟨3, ![1, 64, 256]⟩
abbrev S1024x256 : Shape := ⟨2, ![1024, 256]⟩
abbrev S1024x64 : Shape := ⟨2, ![1024, 64]⟩
abbrev S4096x64 : Shape := ⟨2, ![4096, 64]⟩
abbrev S64x256 : Shape := ⟨2, ![64, 256]⟩

abbrev nBuf : Space → Nat
  | .hbm => 11
  | .vmem => 14
  | .smem => 1
  | _ => 0

abbrev bufTy : (tb : Table) → Fin (tcTables nBuf tb) → BufTy
  | .hbm, ⟨0, _⟩ => ⟨S4x2048x4096, .f32⟩
  | .hbm, ⟨1, _⟩ => ⟨S4, .i32⟩
  | .hbm, ⟨2, _⟩ => ⟨S4096x4096, .f32⟩
  | .hbm, ⟨3, _⟩ => ⟨S4096, .f32⟩
  | .hbm, ⟨4, _⟩ => ⟨S8x4096x64, .f32⟩
  | .hbm, ⟨5, _⟩ => ⟨S8x64x4096, .f32⟩
  | .hbm, ⟨6, _⟩ => ⟨S8192x4096, .f32⟩
  | .hbm, ⟨7, _⟩ => ⟨S1x4096, .f32⟩
  | .hbm, ⟨8, _⟩ => ⟨S4x2, .i32⟩
  | .hbm, ⟨9, _⟩ => ⟨S8192x4096, .f32⟩
  | .hbm, ⟨10, _⟩ => ⟨S4x2048x4096, .f32⟩
  | .local _ .vmem, ⟨0, _⟩ => ⟨S1024x4096, .f32⟩
  | .local _ .vmem, ⟨1, _⟩ => ⟨S1024x4096, .f32⟩
  | .local _ .vmem, ⟨2, _⟩ => ⟨S256x4096, .f32⟩
  | .local _ .vmem, ⟨3, _⟩ => ⟨S256x4096, .f32⟩
  | .local _ .vmem, ⟨4, _⟩ => ⟨S1x256, .f32⟩
  | .local _ .vmem, ⟨5, _⟩ => ⟨S1x256, .f32⟩
  | .local _ .vmem, ⟨6, _⟩ => ⟨S1x4096x64, .f32⟩
  | .local _ .vmem, ⟨7, _⟩ => ⟨S1x4096x64, .f32⟩
  | .local _ .vmem, ⟨8, _⟩ => ⟨S1x64x256, .f32⟩
  | .local _ .vmem, ⟨9, _⟩ => ⟨S1x64x256, .f32⟩
  | .local _ .vmem, ⟨10, _⟩ => ⟨S1024x256, .f32⟩
  | .local _ .vmem, ⟨11, _⟩ => ⟨S1024x256, .f32⟩
  | .local _ .vmem, ⟨12, _⟩ => ⟨S1024x64, .bf16⟩
  | .local _ .vmem, ⟨13, _⟩ => ⟨S1024x4096, .bf16⟩
  | .local _ .smem, ⟨0, _⟩ => ⟨S8, .i32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v4 : Ref sig .tc := ⟨.hbm, 9, rfl⟩
abbrev main_v5 : Ref sig .tc := ⟨.hbm, 10, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S4x2048x4096_S8192x4096 : S4x2048x4096.ShapeCasts S8192x4096
  shapeCasts_S4096_S1x4096 : S4096.ShapeCasts S1x4096
  bcast_S4_S4x2_0 : S4.BroadcastsInDim S4x2 (![0] : Fin 1 → Fin S4x2.rank)
  shapeCasts_S4x2_S8 : S4x2.ShapeCasts S8
  numel1_S1 : S1.numel = 1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  packedbf16_S1024x4096_S1024x4096_0_0 : (Rect.unit (s := S1024x4096) ![0, 0] S1024x4096.size inb_S1024x4096_S1024x4096_0_0).PackedRows (EltTy.packing .bf16)
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  packedbf16_S1024x64_S1024x64_0_0 : (Rect.unit (s := S1024x64) ![0, 0] S1024x64.size inb_S1024x64_S1024x64_0_0).PackedRows (EltTy.packing .bf16)
  inb_S256x4096_S256x4096_0_0 : ∀ a, (![0, 0] : Fin 2 → Nat) a + S256x4096.size a ≤ S256x4096.size a
  h_S256x4096 : 0 < S256x4096.numel
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x4096_S4x2048x4096 : S8192x4096.ShapeCasts S4x2048x4096
  dot_S1024x4096_S4096x64_S1024x64_1_0_0_1_n_n_wf : DotDims.WF S1024x4096 S4096x64 S1024x64 [1] [0] [0] [1] [] []
  dot_S1024x4096_S256x4096_S1024x256_1_1_0_0_n_n_wf : DotDims.WF S1024x4096 S256x4096 S1024x256 [1] [1] [0] [0] [] []
  dot_S1024x64_S64x256_S1024x256_1_0_0_1_n_n_wf : DotDims.WF S1024x64 S64x256 S1024x256 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x4096.size a
  hwx0_5 : ∀ i : grid0.Coords, EltTy.bits .f32 = 32 ∨ (Rect.block (s := S8192x4096) S1024x256.size (cc0_transform_5 i) (hinb0_5 i)).WholeWords (EltTy.packing .f32)

variable [Facts₀]

def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf
def dot_S1024x64_S64x256_S1024x256_1_0_0_1_n_n : DotDims S1024x64 S64x256 S1024x256 where
  lhsContracting := [1]
  rhsContracting := [0]
  lhsNonContracting := [0]
  rhsNonContracting := [1]
  lhsBatch := []
  rhsBatch := []
  wf := dot_S1024x64_S64x256_S1024x256_1_0_0_1_n_n_wf

abbrev spec0_0 : Pipeline.WinSpec sig grid0.rank :=
  Pipeline.WinSpec.ofSpec (Memref.whole main_v0) S1024x4096.size reads0_0 false false 2 stage0_0 sem0_0 nbuf0_0 hstage0_0

abbrev spec0_1 : Pipeline.WinSpec sig grid0.rank :=
  Pipeline.WinSpec.ofSpec (Memref.whole main_arg2) S256x4096.size reads0_1 false false 2 stage0_1 sem0_1 nbuf0_1 hstage0_1

abbrev spec0_2 : Pipeline.WinSpec sig grid0.rank :=
  Pipeline.WinSpec.ofSpec (Memref.whole main_v1) S1x256.size reads0_2 false false 2 stage0_2 sem0_2 nbuf0_2 hstage0_2

abbrev spec0_3 : Pipeline.WinSpec sig grid0.rank :=
  Pipeline.WinSpec.ofSpec (Memref.whole main_arg4) S1x4096x64.size reads0_3 false false 2 stage0_3 sem0_3 nbuf0_3 hstage0_3

abbrev spec0_4 : Pipeline.WinSpec sig grid0.rank :=
  Pipeline.WinSpec.ofSpec (Memref.whole main_arg5) S1x64x256.size reads0_4 false false 2 stage0_4 sem0_4 nbuf0_4 hstage0_4

abbrev spec0_5 : Pipeline.WinSpec sig grid0.rank :=
  Pipeline.WinSpec.ofSpec (Memref.whole main_v4) S1024x256.size reads0_5 true false 2 stage0_5 sem0_5 nbuf0_5 hstage0_5

abbrev spec0 : Fin 6 → Pipeline.WinSpec sig grid0.rank := fun | 0 => spec0_0 | 1 => spec0_1 | 2 => spec0_2 | 3 => spec0_3 | 4 => spec0_4 | 5 => spec0_5 | ⟨_ + 6, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | ⟨_ + 6, h⟩ => absurd h (Nat.not_lt.2 (Nat.le_add_left _ _))
abbrev ix0 (pf : pre0.Contents (Elt F)) : (w : Fin 6) → grid0.Coords → Fin (spec0 w).shape.rank → Nat := fun | 0 => cc0_transform_0 | 1 => cc0_transform_1 | 2 => cc0_transform_2 | 3 => cc0_transform_3 k0_off1_inb numel1_S1 pf | 4 => cc0_transform_4 k0_off1_inb numel1_S1 pf | 5 => cc0_transform_5 | ⟨_ + 6, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 pf | 5 => hreads0_5 | ⟨_ + 6, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x4096x64.size a ≤ S8x4096x64.size a), EltTy.bits .f32 = 32 ∨ (Rect.block (s := S8x4096x64) S1x4096x64.size (cc0_transform_3 k0_off1_inb numel1_S1 pf i) h).WholeWords (EltTy.packing .f32)) ∧
  (∀ i : grid0.Coords, ∃ h : (∀ a, (cc0_transform_4 k0_off1_inb numel1_S1 pf i a + 1) * S1x64x256.size a ≤ S8x64x4096.size a), EltTy.bits .f32 = 32 ∨ (Rect.block (s := S8x64x4096) S1x64x256.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok.1 i).elim fun h _ => h a | 4 => fun i a => (hok.2 i).elim fun h _ => h a | 5 => hinb0_5 | ⟨_ + 6, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok.1 i).elim fun _ h => h | 4 => fun i => (hok.2 i).elim fun _ h => h | 5 => hwx0_5 | ⟨_ + 6, h⟩ => absurd h (Nat.not_lt.2 (Nat.le_add_left _ _))

class Facts : Prop extends Facts₀ where
  harr0 : ∀ w, (spec0 w).arr.IsWhole

variable [Facts]
-- ==== ReferenceIdeal.lean ====
abbrev S4x2048x4096 : Shape := ⟨3, ![4, 2048, 4096]⟩
abbrev S4 : Shape := ⟨1, ![4]⟩
abbrev S4096x4096 : Shape := ⟨2, ![4096, 4096]⟩
abbrev S4096 : Shape := ⟨1, ![4096]⟩
abbrev S8x4096x64 : Shape := ⟨3, ![8, 4096, 64]⟩
abbrev S8x64x4096 : Shape := ⟨3, ![8, 64, 4096]⟩
abbrev S1x1x4096 : Shape := ⟨3, ![1, 1, 4096]⟩
abbrev S_ : Shape := ⟨0, ![]⟩
abbrev S4x1 : Shape := ⟨2, ![4, 1]⟩
abbrev S1 : Shape := ⟨1, ![1]⟩
abbrev S1x1 : Shape := ⟨2, ![1, 1]⟩
abbrev S4x4096x64 : Shape := ⟨3, ![4, 4096, 64]⟩
abbrev S4x64x4096 : Shape := ⟨3, ![4, 64, 4096]⟩
abbrev S4x2048x64 : Shape := ⟨3, ![4, 2048, 64]⟩

abbrev nBuf : Space → Nat
  | .hbm => 59
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4, .i32⟩
  | .hbm, ⟨2, _⟩ => ⟨S4096x4096, .f32⟩
  | .hbm, ⟨3, _⟩ => ⟨S4096, .f32⟩
  | .hbm, ⟨4, _⟩ => ⟨S8x4096x64, .f32⟩
  | .hbm, ⟨5, _⟩ => ⟨S8x64x4096, .f32⟩
  | .hbm, ⟨6, _⟩ => ⟨S4x2048x4096, .f32⟩
  | .hbm, ⟨7, _⟩ => ⟨S1x1x4096, .f32⟩
  | .hbm, ⟨8, _⟩ => ⟨S4x2048x4096, .f32⟩
  | .hbm, ⟨9, _⟩ => ⟨S4x2048x4096, .f32⟩
  | .hbm, ⟨10, _⟩ => ⟨S_, .i32⟩
  | .hbm, ⟨11, _⟩ => ⟨S4, .i32⟩
  | .hbm, ⟨12, _⟩ => ⟨S4, .i1⟩
  | .hbm, ⟨13, _⟩ => ⟨S_, .i32⟩
  | .hbm, ⟨14, _⟩ => ⟨S4, .i32⟩
  | .hbm, ⟨15, _⟩ => ⟨S4, .i32⟩
  | .hbm, ⟨16, _⟩ => ⟨S4, .i32⟩
  | .hbm, ⟨17, _⟩ => ⟨S4x1, .i32⟩
  | .hbm, ⟨18, _⟩ => ⟨S1, .i32⟩
  | .hbm, ⟨19, _⟩ => ⟨S_, .i32⟩
  | .hbm, ⟨20, _⟩ => ⟨S4x1, .i32⟩
  | .hbm, ⟨21, _⟩ => ⟨S4x1, .i1⟩
  | .hbm, ⟨22, _⟩ => ⟨S1x1, .i32⟩
  | .hbm, ⟨23, _⟩ => ⟨S4x1, .i32⟩
  | .hbm, ⟨24, _⟩ => ⟨S4x1, .i1⟩
  | .hbm, ⟨25, _⟩ => ⟨S4x1, .i1⟩
  | .hbm, ⟨26, _⟩ => ⟨S_, .i1⟩
  | .hbm, ⟨27, _⟩ => ⟨S4, .i1⟩
  | .hbm, ⟨28, _⟩ => ⟨S4x4096x64, .f32⟩
  | .hbm, ⟨29, _⟩ => ⟨S4x4096x64, .i1⟩
  | .hbm, ⟨30, _⟩ => ⟨S_, .f32⟩
  | .hbm, ⟨31, _⟩ => ⟨S4x4096x64, .f32⟩
  | .hbm, ⟨32, _⟩ => ⟨S4x4096x64, .f32⟩
  | .hbm, ⟨33, _⟩ => ⟨S_, .i32⟩
  | .hbm, ⟨34, _⟩ => ⟨S4, .i32⟩
  | .hbm, ⟨35, _⟩ => ⟨S4, .i1⟩
  | .hbm, ⟨36, _⟩ => ⟨S_, .i32⟩
  | .hbm, ⟨37, _⟩ => ⟨S4, .i32⟩
  | .hbm, ⟨38, _⟩ => ⟨S4, .i32⟩
  | .hbm, ⟨39, _⟩ => ⟨S4, .i32⟩
  | .hbm, ⟨40, _⟩ => ⟨S4x1, .i32⟩
  | .hbm, ⟨41, _⟩ => ⟨S1, .i32⟩
  | .hbm, ⟨42, _⟩ => ⟨S_, .i32⟩
  | .hbm, ⟨43, _⟩ => ⟨S4x1, .i32⟩
  | .hbm, ⟨44, _⟩ => ⟨S4x1, .i1⟩
  | .hbm, ⟨45, _⟩ => ⟨S1x1, .i32⟩
  | .hbm, ⟨46, _⟩ => ⟨S4x1, .i32⟩
  | .hbm, ⟨47, _⟩ => ⟨S4x1, .i1⟩
  | .hbm, ⟨48, _⟩ => ⟨S4x1, .i1⟩
  | .hbm, ⟨49, _⟩ => ⟨S_, .i1⟩
  | .hbm, ⟨50, _⟩ => ⟨S4, .i1⟩
  | .hbm, ⟨51, _⟩ => ⟨S4x64x4096, .f32⟩
  | .hbm, ⟨52, _⟩ => ⟨S4x64x4096, .i1⟩
  | .hbm, ⟨53, _⟩ => ⟨S_, .f32⟩
  | .hbm, ⟨54, _⟩ => ⟨S4x64x4096, .f32⟩
  | .hbm, ⟨55, _⟩ => ⟨S4x64x4096, .f32⟩
  | .hbm, ⟨56, _⟩ => ⟨S4x2048x64, .f32⟩
  | .hbm, ⟨57, _⟩ => ⟨S4x2048x4096, .f32⟩
  | .hbm, ⟨58, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4 : S_.BroadcastsInDim S4 (![] : Fin 0 → Fin S4.rank)
  bcast_S4_S4x1_0 : S4.BroadcastsInDim S4x1 (![0] : Fin 1 → Fin S4x1.rank)
  bcast_S_S4x1 : S_.BroadcastsInDim S4x1 (![] : Fin 0 → Fin S4x1.rank)
  bcast_S1_S1x1_1 : S1.BroadcastsInDim S1x1 (![1] : Fin 1 → Fin S1x1.rank)
  bcast_S1x1_S4x1_0_1 : S1x1.BroadcastsInDim S4x1 (![0, 1] : Fin 2 → Fin S4x1.rank)
  reducesTo_S4x1_S4_d1 : S4x1.ReducesTo [1] S4
  h_S_ : 0 < S_.numel
  bcast_S4_S4x4096x64_0 : S4.BroadcastsInDim S4x4096x64 (![0] : Fin 1 → Fin S4x4096x64.rank)
  bcast_S_S4x4096x64 : S_.BroadcastsInDim S4x4096x64 (![] : Fin 0 → Fin S4x4096x64.rank)
  bcast_S4_S4x64x4096_0 : S4.BroadcastsInDim S4x64x4096 (![0] : Fin 1 → Fin S4x64x4096.rank)
  bcast_S_S4x64x4096 : S_.BroadcastsInDim S4x64x4096 (![] : Fin 0 → Fin S4x64x4096.rank)
  dot_S4x2048x4096_S4096x4096_S4x2048x4096_2_1_01_0_n_n_wf : DotDims.WF S4x2048x4096 S4096x4096 S4x2048x4096 [2] [1] [0, 1] [0] [] []
  gather_S8x4096x64_S4x1_S4x4096x64_12_0_n_n_0_1_1409664_wf : GatherDims.WF S8x4096x64 S4x1 S4x4096x64 [1, 2] [0] [] [0] [] 1 ![1, 4096, 64]
  gather_S8x64x4096_S4x1_S4x64x4096_12_0_n_n_0_1_1644096_wf : GatherDims.WF S8x64x4096 S4x1 S4x64x4096 [1, 2] [0] [] [0] [] 1 ![1, 64, 4096]
  dot_S4x2048x4096_S4x4096x64_S4x2048x64_2_1_1_2_0_0_wf : DotDims.WF S4x2048x4096 S4x4096x64 S4x2048x64 [2] [1] [1] [2] [0] [0]
  dot_S4x2048x64_S4x64x4096_S4x2048x4096_2_1_1_2_0_0_wf : DotDims.WF S4x2048x64 S4x64x4096 S4x2048x4096 [2] [1] [1] [2] [0] [0]

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def gather_S8x4096x64_S4x1_S4x4096x64_12_0_n_n_0_1_1409664 : GatherDims S8x4096x64 S4x1 S4x4096x64 where
  offsetDims := [1, 2]
  collapsedSliceDims := [0]
  operandBatchingDims := []
  startIndicesBatchingDims := []
  startIndexMap := [0]
  indexVectorDim := 1
  sliceSizes := ![1, 4096, 64]
  wf := gather_S8x4096x64_S4x1_S4x4096x64_12_0_n_n_0_1_1409664_wf
def gather_S8x64x4096_S4x1_S4x64x4096_12_0_n_n_0_1_1644096 : GatherDims S8x64x4096 S4x1 S4x64x4096 where
  offsetDims := [1, 2]
  collapsedSliceDims := [0]
  operandBatchingDims := []
  startIndicesBatchingDims := []
  startIndexMap := [0]
  indexVectorDim := 1
  sliceSizes := ![1, 64, 4096]
  wf := gather_S8x64x4096_S4x1_S4x64x4096_12_0_n_n_0_1_1644096_wf
def dot_S4x2048x4096_S4x4096x64_S4x2048x64_2_1_1_2_0_0 : DotDims S4x2048x4096 S4x4096x64 S4x2048x64 where
  lhsContracting := [2]
  rhsContracting := [1]
  lhsNonContracting := [1]
  rhsNonContracting := [2]
  lhsBatch := [0]
  rhsBatch := [0]
  wf := dot_S4x2048x4096_S4x4096x64_S4x2048x64_2_1_1_2_0_0_wf
def dot_S4x2048x64_S4x64x4096_S4x2048x4096_2_1_1_2_0_0 : DotDims S4x2048x64 S4x64x4096 S4x2048x4096 where
  lhsContracting := [2]
  rhsContracting := [1]
  lhsNonContracting := [1]
  rhsNonContracting := [2]
  lhsBatch := [0]
  rhsBatch := [0]
  wf := dot_S4x2048x64_S4x64x4096_S4x2048x4096_2_1_1_2_0_0_wf

class Facts : Prop extends Facts₀ where

variable [Facts]
-- ==== Proof.Spec.lean ====
/-
  A multi-LoRA linear layer, as one function of its six argument arrays.

  For a batch of 4 sequences of 2048 tokens with 4096 features, a base weight `W` (4096 × 4096, out × in), a bias, and
  eight low-rank adapters `A[l]` (4096 × 64) and `B[l]` (64 × 4096), sequence `b` uses the adapter its id word names, and

      out[b, s, o] = (∑ d, x[b,s,d] · W[o,d]) + (∑ k, (∑ d, x[b,s,d] · A[l,d,k]) · B[l,k,o]) + bias[o],   l = adapter b.

  All sums and products are taken in the extended reals, where addition is commutative and associative: the order in
  which the three summands are added does not matter, and no finiteness is needed to regroup them. The low-rank product
  is grouped as written — first into the 64-dimensional rank space, then out of it — on both sides of the comparison.
-/
import Idealize.ShloMosaic.PureOps.Ideal
import Idealize.ShloMosaic.Lib.ValueIdx

noncomputable section

namespace Cert.MultiLora

open Idealize.ShloMosaic Idealize.ShloMosaic.ValueIdx
open scoped BigOperators

/-- The adapter ids name adapters: each of the four words, read as a signed integer, lies in `[0, 8)`. -/
def IdsInRange (ids : (⟨1, ![4]⟩ : Shape).Idx → BitVec 32) : Prop :=
  ∀ b : Fin 4, 0 ≤ (ids (ix1 b)).toInt ∧ (ids (ix1 b)).toInt < 8

/-- The adapter sequence `b` selects: its id word as a natural number, reduced into the eight adapters (for ids in
    range the reduction changes nothing: `adapter_val`). -/
def adapter (ids : (⟨1, ![4]⟩ : Shape).Idx → BitVec 32) (b : Fin 4) : Fin 8 :=
  ⟨(ids (ix1 b)).toNat % 8, Nat.mod_lt _ (by decide)⟩

/-- A word in `[0, 8)` signed is below 8 unsigned, and its signed and unsigned readings agree. -/
theorem toNat_of_range (w : BitVec 32) (h0 : 0 ≤ w.toInt) (h8 : w.toInt < 8) : w.toNat < 8 ∧ w.toInt = (w.toNat : Int) := by
  have h32 := w.isLt
  have e : w.toInt = if 2 * w.toNat < 2 ^ 32 then (w.toNat : Int) else (w.toNat : Int) - ((2 ^ 32 : Nat) : Int) := rfl
  rw [e] at h0 h8 ⊢
  split_ifs at h0 h8 ⊢ with hlt
  · exact ⟨by omega, rfl⟩
  · exfalso; omega

/-- For ids in range the selected adapter IS the id word. -/
theorem adapter_val {ids : (⟨1, ![4]⟩ : Shape).Idx → BitVec 32} (h : IdsInRange ids) (b : Fin 4) :
    (adapter ids b).val = (ids (ix1 b)).toNat := by
  have := (toNat_of_range _ (h b).1 (h b).2).1
  show (ids (ix1 b)).toNat % 8 = _
  omega

/-- Token `(b, s)` in the rank space of adapter `l`: `∑ d, x[b,s,d] · A[l,d,k]`. -/
def lowRank (x : (⟨3, ![4, 2048, 4096]⟩ : Shape).Idx → EReal) (A : (⟨3, ![8, 4096, 64]⟩ : Shape).Idx → EReal)
    (l : Fin 8) (b : Fin 4) (s : Fin 2048) (k : Fin 64) : EReal :=
  ∑ d : Fin 4096, x (ix3 b s d) * A (ix3 l d k)

/-- The layer's output at `(b, s, o)`: base product, plus the low-rank update, plus the bias. -/
def outAt (x : (⟨3, ![4, 2048, 4096]⟩ : Shape).Idx → EReal) (ids : (⟨1, ![4]⟩ : Shape).Idx → BitVec 32)
    (W : (⟨2, ![4096, 4096]⟩ : Shape).Idx → EReal) (bias : (⟨1, ![4096]⟩ : Shape).Idx → EReal)
    (A : (⟨3, ![8, 4096, 64]⟩ : Shape).Idx → EReal) (B : (⟨3, ![8, 64, 4096]⟩ : Shape).Idx → EReal)
    (b : Fin 4) (s : Fin 2048) (o : Fin 4096) : EReal :=
  (∑ d : Fin 4096, x (ix3 b s d) * W (ix2 o d))
    + (∑ k : Fin 64, lowRank x A (adapter ids b) b s k * B (ix3 (adapter ids b) k o))
    + bias (ix1 o)

/-- The whole output array. -/
def out (x : (⟨3, ![4, 2048, 4096]⟩ : Shape).Idx → EReal) (ids : (⟨1, ![4]⟩ : Shape).Idx → BitVec 32)
    (W : (⟨2, ![4096, 4096]⟩ : Shape).Idx → EReal) (bias : (⟨1, ![4096]⟩ : Shape).Idx → EReal)
    (A : (⟨3, ![8, 4096, 64]⟩ : Shape).Idx → EReal) (B : (⟨3, ![8, 64, 4096]⟩ : Shape).Idx → EReal) :
    (⟨3, ![4, 2048, 4096]⟩ : Shape).Idx → EReal :=
  fun j => outAt x ids W bias A B (j 0) (j 1) (j 2)

theorem out_ix3 (x ids W bias A B) (b : Fin 4) (s : Fin 2048) (o : Fin 4096) :
    out x ids W bias A B (ix3 b s o) = outAt x ids W bias A B b s o := rfl

end Cert.MultiLora

end
-- ==== Proof.PreIds.lean ====
/-
  The adapter ids are in range whenever the precondition holds.

  The precondition is a conjunction of six `jnp.all`s, printed as a left-nested chain of one-bit `and`s over
  reductions by `and`: four say that the float arguments are finite, and the last two say, of the four id words read as
  signed integers, `0 ≤ id` and `id < 8`. Only those last two are opened here: a one-bit `and` that is 1 has both
  operands 1, a reduction by `and` that is 1 met only 1s, and a signed comparison that is 1 is the order of the two
  words' signed readings. The float conjuncts stay closed, so the statement is the same at every float instance.
-/
import proofs.«108454_g45956150067888_cont_8to1_c_53_5_alg».proof.Pre_finite_inputs
import proofs.«108454_g45956150067888_cont_8to1_c_53_5_alg».proof.Proof.Spec
import Idealize.ShloMosaic.Lib.ReduceAll

noncomputable section

namespace Cert.MultiLora

open Idealize.ShloMosaic Idealize.ShloMosaic.ValueIdx
open Cert.Pre_finite_inputs

/-- The scalar shape has one index. -/
instance subsingleton_scalarIdx : Subsingleton S_.Idx := ⟨fun a b => funext fun d => d.elim0⟩

variable {F : FTy → Type} [FloatOps F] [Cert.Pre_finite_inputs.Facts]

/-- The tail of the precondition's chain (its last four conjuncts, the first two already folded into `v13`) being 1
    says the ids are in range: its last two conjuncts are `all (ids ≥ 0)` and `all (ids < 8)`, signed. -/
theorem ids_of_part1 (ids : IVec S4 32) (B : FVec F S8x64x4096 .f32) (v13 : IVec S_ 1) (v16 : IVec S8x4096x64 1)
    (h : fn_part1 (F := F) ids B v13 v16 ix0 = 1#1) : IdsInRange ids := by
  unfold fn_part1 at h
  dsimp only at h
  obtain ⟨h27, h30⟩ := IntOp.andi_eq_one.1 h
  obtain ⟨-, h26⟩ := IntOp.andi_eq_one.1 h27
  intro b
  have g0 := Host.reduce_andi_all _ _ _ _ _ h26 (ix1 b)
  have g8 := Host.reduce_andi_all _ _ _ _ _ h30 (ix1 b)
  exact ⟨IntOp.cmpi_sge.1 g0, IntOp.cmpi_slt.1 g8⟩

/-- The precondition says the ids are in range. -/
theorem ids_of_pre (x : FVec F S4x2048x4096 .f32) (ids : IVec S4 32) (W : FVec F S4096x4096 .f32)
    (bias : FVec F S4096 .f32) (A : FVec F S8x4096x64 .f32) (B : FVec F S8x64x4096 .f32)
    (h : Cert.Pre_finite_inputs.fn (F := F) x ids W bias A B = fun _ => 1#1) : IdsInRange ids :=
  ids_of_part1 ids B _ _ (congrFun h ix0)

end Cert.MultiLora

end
-- ==== Proof.OkKernel.lean ====
/-
  From ids in range to the side condition of the kernel's frame.

  The host part of the program spreads the four adapter ids over the eight row tiles of the flattened `[8192, 4096]`
  input: it broadcasts `ids : [4]` to `[4, 2]` and reshapes that to `[8]`, so tile `j` (1024 rows, half a sequence)
  carries the id of sequence `j / 2`. That `[8]` array is the table the pipeline prefetches. The index maps of the two
  low-rank windows read it at the first grid coordinate and use the word as the block row of the adapter arrays
  `A : [8, 4096, 64]` and `B : [8, 64, 4096]`; the generated frame holds when every such block lies inside its array,
  that is, when every word of the table is below 8 unsigned. The precondition says each id, read signed, is in `[0, 8)`,
  and a word in that range has the same unsigned reading.

  The facts about the index maps are proved of an arbitrary table `pf` and only then read at the table the launch
  memory yields; nothing here depends on the float instance.
-/
import proofs.«108454_g45956150067888_cont_8to1_c_53_5_alg».proof.Defs
import proofs.«108454_g45956150067888_cont_8to1_c_53_5_alg».proof.Proof.Gen.Kernel.Frame.Runs
import proofs.«108454_g45956150067888_cont_8to1_c_53_5_alg».proof.Proof.Spec
import proofs.«108454_g45956150067888_cont_8to1_c_53_5_alg».proof.Proof.PreIds
import Idealize.ShloMosaic.Lib.Pipeline.Value

set_option maxRecDepth 16384

noncomputable section

namespace Cert.Kernel.OkOfPre

open Cert.Kernel Cert.Kernel.Gen
open Idealize.ShloMosaic Idealize.ShloMosaic.TcCoe Idealize.SL.Sem Idealize.ShloMosaic.ValueIdx
open Cert.MultiLora (IdsInRange adapter)

variable {F : FTy → Type} [FloatOps F]

/-! ## The index maps at any contents of the table

Windows 3 and 4 (the low-rank factors) are the only ones whose index maps read the prefetched table: at grid point
`i` both load the table's word at position `i 0` and use it as the block row of their array. These are facts about
the maps as functions of the table's contents `pf`, whatever they are. -/

/-- A grid coordinate written as a 32-bit word and read back is itself. -/
theorem toNat_ofNat_of_lt (n b : Nat) (h : n < b) (hb : b ≤ 4294967296) : (BitVec.ofNat 32 n).toNat = n := by
  rw [BitVec.toNat_ofNat, Nat.mod_eq_of_lt (by omega)]

/-- The word the index maps load at grid point `i` is the table's word at position `i 0`. -/
theorem at_eq (hinb : ∀ i : grid0.Coords, ∀ a, (k0_off1 i) a + S1.size a ≤ S8.size a) (h1 : S1.numel = 1)
    (pf : pre0.Contents (Elt F)) (i : grid0.Coords) :
    pf.at 0 (Rect.unit (s := S8) ![(Scalar.indexCast (BitVec.ofNat 32 (i 0).val)).toNat] S1.size (hinb i)) h1
      = pf 0 (ix1 (⟨(i 0).val, (i 0).isLt⟩ : Fin 8)) := by
  show pf 0 _ = pf 0 _
  congr 1
  funext a
  apply Fin.ext
  match a with
  | ⟨0, _⟩ =>
    show (BitVec.ofNat 32 (i 0).val).toNat + 1 * 0 = (i 0).val
    rw [toNat_ofNat_of_lt _ 8 (i 0).isLt (by omega)]
    omega

/-- Window 3 (the down-projections, `[8, 4096, 64]` in blocks `[1, 4096, 64]`) at point `i`: block row the table's
    word at `i 0`, the other two coordinates 0. -/
theorem transform_3_eq (hinb : ∀ i : grid0.Coords, ∀ a, (k0_off1 i) a + S1.size a ≤ S8.size a) (h1 : S1.numel = 1)
    (pf : pre0.Contents (Elt F)) (i : grid0.Coords) :
    cc0_transform_3 hinb h1 pf i = ![(pf 0 (ix1 (⟨(i 0).val, (i 0).isLt⟩ : Fin 8))).toNat, 0, 0] := by
  unfold cc0_transform_3
  dsimp only
  rw [at_eq hinb h1 pf i]
  rfl

/-- Window 4 (the up-projections, `[8, 64, 4096]` in blocks `[1, 64, 256]`) at point `i`: block row the same word,
    column block `i 1`. -/
theorem transform_4_eq (hinb : ∀ i : grid0.Coords, ∀ a, (k0_off1 i) a + S1.size a ≤ S8.size a) (h1 : S1.numel = 1)
    (pf : pre0.Contents (Elt F)) (i : grid0.Coords) :
    cc0_transform_4 hinb h1 pf i = ![(pf 0 (ix1 (⟨(i 0).val, (i 0).isLt⟩ : Fin 8))).toNat, 0, (i 1).val] := by
  unfold cc0_transform_4
  dsimp only
  rw [at_eq hinb h1 pf i, toNat_ofNat_of_lt _ 16 (i 1).isLt (by omega)]
  rfl

/-- The pipeline's side condition holds of any table whose eight words are below 8: then every block of windows 3 and
    4 lies inside its array (and `f32` is word-wide, so the transfers end on whole words). -/
theorem ok0_of_lt (pf : pre0.Contents (Elt F)) (h : ∀ j : Fin 8, (pf 0 (ix1 j)).toNat < 8) : ok0 pf := by
  refine ⟨fun i => ⟨fun a => ?_, Or.inl rfl⟩, fun i => ⟨fun a => ?_, Or.inl rfl⟩⟩
  · rw [transform_3_eq]
    have hw := h ⟨(i 0).val, (i 0).isLt⟩
    match a with
    | ⟨0, _⟩ => show ((pf 0 (ix1 (⟨(i 0).val, (i 0).isLt⟩ : Fin 8))).toNat + 1) * 1 ≤ 8; omega
    | ⟨1, _⟩ => show (0 + 1) * 4096 ≤ 4096; omega
    | ⟨2, _⟩ => show (0 + 1) * 64 ≤ 64; omega
  · rw [transform_4_eq]
    have hw := h ⟨(i 0).val, (i 0).isLt⟩
    have h16 : (i 1).val < 16 := (i 1).isLt
    match a with
    | ⟨0, _⟩ => show ((pf 0 (ix1 (⟨(i 0).val, (i 0).isLt⟩ : Fin 8))).toNat + 1) * 1 ≤ 8; omega
    | ⟨1, _⟩ => show (0 + 1) * 64 ≤ 64; omega
    | ⟨2, _⟩ => show ((i 1).val + 1) * 256 ≤ 4096; omega

/-! ## The table the launch memory yields -/

variable (m : (ℓ : Loc nD τ sig) → Buf (Elt F) ℓ)

/-- The sequence a row tile belongs to: tiles `2b` and `2b + 1` are the two halves of sequence `b`. -/
def seqOf (i : grid0.Coords) : Fin 4 := ⟨(i 0).val / 2, Nat.div_lt_of_lt_mul (show (i 0).val < 2 * 4 from (i 0).isLt)⟩

theorem seqOf_val (i : grid0.Coords) : (seqOf i).val = (i 0).val / 2 := rfl

/-- Word `j` of the prefetched table is the id of sequence `j / 2`: the reshape `[4, 2] → [8]` matches position `j`
    with `(j / 2, j % 2)`, and the broadcast along the new axis reads the id at the first coordinate. -/
theorem tbl_eq (j : Fin 8) :
    tbl m 0 (ix1 j) = m (((0 : Dev nD) : Thread nD τ).loc main_arg1) (ix1 (⟨j.val / 2, by omega⟩ : Fin 4)) := by
  unfold tbl
  show StableHlo.after hostOps0 (fun b => m ((0 : Dev nD), b)) (Proc.devRef .tc main_v3) (ix1 j) = _
  after_results
  show shapeCast S8 (broadcastInDim S4x2 ![0] bcast_S4_S4x2_0 (m ((0 : Dev nD), Proc.devRef .tc main_arg1))) shapeCasts_S4x2_S8 (ix1 j) = _
  refine (shapeCast_apply _ _ (ix1 j) (ix2 (⟨j.val / 2, by omega⟩ : Fin 4) (⟨j.val % 2, by omega⟩ : Fin 2)) ?_).trans ?_
  · rw [Shape.rowMajor_val_two, Shape.rowMajor_val_one]
    show (j.val / 2) * 2 + j.val % 2 = j.val
    omega
  · refine broadcastInDim_apply _ _ _ _ (ix1 (⟨j.val / 2, by omega⟩ : Fin 4)) ?_
    intro a
    match a with
    | ⟨0, _⟩ =>
      show j.val / 2 = if (4 : Nat) = 1 then 0 else j.val / 2
      rw [if_neg (by decide)]

/-- For ids in range, word `j` of the table, read unsigned, is the adapter of sequence `j / 2`. -/
theorem tbl_adapter (h : IdsInRange (m (((0 : Dev nD) : Thread nD τ).loc main_arg1))) (j : Fin 8) :
    (tbl m 0 (ix1 j)).toNat = (adapter (m (((0 : Dev nD) : Thread nD τ).loc main_arg1)) (⟨j.val / 2, by omega⟩ : Fin 4)).val := by
  rw [tbl_eq, Cert.MultiLora.adapter_val h]

/-- For ids in range every word of the table is below 8. -/
theorem tbl_lt (h : IdsInRange (m (((0 : Dev nD) : Thread nD τ).loc main_arg1))) (j : Fin 8) : (tbl m 0 (ix1 j)).toNat < 8 := by
  rw [tbl_adapter m h]
  exact (adapter _ _).isLt

/-- THE SIDE CONDITION of the generated frame, from ids in range. -/
theorem ok_of_ids (h : IdsInRange (m (((0 : Dev nD) : Thread nD τ).loc main_arg1))) : Ok m :=
  ok0_of_lt (tbl m) (tbl_lt m h)

/-- Which block of `A` a grid point stages: the adapter of the point's sequence, whole. -/
theorem word_at_3 (h : IdsInRange (m (((0 : Dev nD) : Thread nD τ).loc main_arg1)))
    (hinb : ∀ i : grid0.Coords, ∀ a, (k0_off1 i) a + S1.size a ≤ S8.size a) (h1 : S1.numel = 1) (i : grid0.Coords) :
    cc0_transform_3 hinb h1 (tbl m) i = ![(adapter (m (((0 : Dev nD) : Thread nD τ).loc main_arg1)) (seqOf i)).val, 0, 0] := by
  rw [transform_3_eq, tbl_adapter m h]
  rfl

/-- Which block of `B` a grid point stages: the same adapter, column block `i 1`. -/
theorem word_at_4 (h : IdsInRange (m (((0 : Dev nD) : Thread nD τ).loc main_arg1)))
    (hinb : ∀ i : grid0.Coords, ∀ a, (k0_off1 i) a + S1.size a ≤ S8.size a) (h1 : S1.numel = 1) (i : grid0.Coords) :
    cc0_transform_4 hinb h1 (tbl m) i = ![(adapter (m (((0 : Dev nD) : Thread nD τ).loc main_arg1)) (seqOf i)).val, 0, (i 1).val] := by
  rw [transform_4_eq, tbl_adapter m h]
  rfl

end Cert.Kernel.OkOfPre

namespace Cert.Kernel.OkOfPre

open Cert.Kernel Cert.Kernel.Gen
open Idealize.ShloMosaic Idealize.ShloMosaic.TcCoe Idealize.SL.Sem

/-- The precondition, read on the program's one device, says the ids are in range (its last two conjuncts). -/
theorem ids_in_range [Cert.Pre_finite_inputs.Facts] (m : (ℓ : Loc nD τ sig) → Buf (Elt Bits) ℓ) (h : Cert.Pre_Kernel m) :
    Cert.MultiLora.IdsInRange (m (((0 : Dev nD) : Thread nD τ).loc main_arg1)) :=
  Cert.MultiLora.ids_of_pre _ _ _ _ _ _ (h 0)

/-- THE SIDE CONDITION from the precondition. -/
theorem ok_of_pre [Cert.Pre_finite_inputs.Facts] (m : (ℓ : Loc nD τ sig) → Buf (Elt Bits) ℓ) (h : Cert.Pre_Kernel m) : Ok m :=
  ok_of_ids m (ids_in_range m h)

end Cert.Kernel.OkOfPre

end
-- ==== Proof.OkKernelIdeal.lean ====
/-
  From ids in range to the side condition of the kernel's frame.

  The host part of the program spreads the four adapter ids over the eight row tiles of the flattened `[8192, 4096]`
  input: it broadcasts `ids : [4]` to `[4, 2]` and reshapes that to `[8]`, so tile `j` (1024 rows, half a sequence)
  carries the id of sequence `j / 2`. That `[8]` array is the table the pipeline prefetches. The index maps of the two
  low-rank windows read it at the first grid coordinate and use the word as the block row of the adapter arrays
  `A : [8, 4096, 64]` and `B : [8, 64, 4096]`; the generated frame holds when every such block lies inside its array,
  that is, when every word of the table is below 8 unsigned. The precondition says each id, read signed, is in `[0, 8)`,
  and a word in that range has the same unsigned reading.

  The facts about the index maps are proved of an arbitrary table `pf` and only then read at the table the launch
  memory yields; nothing here depends on the float instance.
-/
import proofs.«108454_g45956150067888_cont_8to1_c_53_5_alg».proof.Defs
import proofs.«108454_g45956150067888_cont_8to1_c_53_5_alg».proof.Proof.Gen.KernelIdeal.Frame.Runs
import proofs.«108454_g45956150067888_cont_8to1_c_53_5_alg».proof.Proof.Spec
import proofs.«108454_g45956150067888_cont_8to1_c_53_5_alg».proof.Proof.PreIds
import Idealize.ShloMosaic.Lib.Pipeline.Value

set_option maxRecDepth 16384

noncomputable section

namespace Cert.KernelIdeal.OkOfPre

open Cert.KernelIdeal Cert.KernelIdeal.Gen
open Idealize.ShloMosaic Idealize.ShloMosaic.TcCoe Idealize.SL.Sem Idealize.ShloMosaic.ValueIdx
open Cert.MultiLora (IdsInRange adapter)

variable {F : FTy → Type} [FloatOps F]

/-! ## The index maps at any contents of the table

Windows 3 and 4 (the low-rank factors) are the only ones whose index maps read the prefetched table: at grid point
`i` both load the table's word at position `i 0` and use it as the block row of their array. These are facts about
the maps as functions of the table's contents `pf`, whatever they are. -/

/-- A grid coordinate written as a 32-bit word and read back is itself. -/
theorem toNat_ofNat_of_lt (n b : Nat) (h : n < b) (hb : b ≤ 4294967296) : (BitVec.ofNat 32 n).toNat = n := by
  rw [BitVec.toNat_ofNat, Nat.mod_eq_of_lt (by omega)]

/-- The word the index maps load at grid point `i` is the table's word at position `i 0`. -/
theorem at_eq (hinb : ∀ i : grid0.Coords, ∀ a, (k0_off1 i) a + S1.size a ≤ S8.size a) (h1 : S1.numel = 1)
    (pf : pre0.Contents (Elt F)) (i : grid0.Coords) :
    pf.at 0 (Rect.unit (s := S8) ![(Scalar.indexCast (BitVec.ofNat 32 (i 0).val)).toNat] S1.size (hinb i)) h1
      = pf 0 (ix1 (⟨(i 0).val, (i 0).isLt⟩ : Fin 8)) := by
  show pf 0 _ = pf 0 _
  congr 1
  funext a
  apply Fin.ext
  match a with
  | ⟨0, _⟩ =>
    show (BitVec.ofNat 32 (i 0).val).toNat + 1 * 0 = (i 0).val
    rw [toNat_ofNat_of_lt _ 8 (i 0).isLt (by omega)]
    omega

/-- Window 3 (the down-projections, `[8, 4096, 64]` in blocks `[1, 4096, 64]`) at point `i`: block row the table's
    word at `i 0`, the other two coordinates 0. -/
theorem transform_3_eq (hinb : ∀ i : grid0.Coords, ∀ a, (k0_off1 i) a + S1.size a ≤ S8.size a) (h1 : S1.numel = 1)
    (pf : pre0.Contents (Elt F)) (i : grid0.Coords) :
    cc0_transform_3 hinb h1 pf i = ![(pf 0 (ix1 (⟨(i 0).val, (i 0).isLt⟩ : Fin 8))).toNat, 0, 0] := by
  unfold cc0_transform_3
  dsimp only
  rw [at_eq hinb h1 pf i]
  rfl

/-- Window 4 (the up-projections, `[8, 64, 4096]` in blocks `[1, 64, 256]`) at point `i`: block row the same word,
    column block `i 1`. -/
theorem transform_4_eq (hinb : ∀ i : grid0.Coords, ∀ a, (k0_off1 i) a + S1.size a ≤ S8.size a) (h1 : S1.numel = 1)
    (pf : pre0.Contents (Elt F)) (i : grid0.Coords) :
    cc0_transform_4 hinb h1 pf i = ![(pf 0 (ix1 (⟨(i 0).val, (i 0).isLt⟩ : Fin 8))).toNat, 0, (i 1).val] := by
  unfold cc0_transform_4
  dsimp only
  rw [at_eq hinb h1 pf i, toNat_ofNat_of_lt _ 16 (i 1).isLt (by omega)]
  rfl

/-- The pipeline's side condition holds of any table whose eight words are below 8: then every block of windows 3 and
    4 lies inside its array (and `f32` is word-wide, so the transfers end on whole words). -/
theorem ok0_of_lt (pf : pre0.Contents (Elt F)) (h : ∀ j : Fin 8, (pf 0 (ix1 j)).toNat < 8) : ok0 pf := by
  refine ⟨fun i => ⟨fun a => ?_, Or.inl rfl⟩, fun i => ⟨fun a => ?_, Or.inl rfl⟩⟩
  · rw [transform_3_eq]
    have hw := h ⟨(i 0).val, (i 0).isLt⟩
    match a with
    | ⟨0, _⟩ => show ((pf 0 (ix1 (⟨(i 0).val, (i 0).isLt⟩ : Fin 8))).toNat + 1) * 1 ≤ 8; omega
    | ⟨1, _⟩ => show (0 + 1) * 4096 ≤ 4096; omega
    | ⟨2, _⟩ => show (0 + 1) * 64 ≤ 64; omega
  · rw [transform_4_eq]
    have hw := h ⟨(i 0).val, (i 0).isLt⟩
    have h16 : (i 1).val < 16 := (i 1).isLt
    match a with
    | ⟨0, _⟩ => show ((pf 0 (ix1 (⟨(i 0).val, (i 0).isLt⟩ : Fin 8))).toNat + 1) * 1 ≤ 8; omega
    | ⟨1, _⟩ => show (0 + 1) * 64 ≤ 64; omega
    | ⟨2, _⟩ => show ((i 1).val + 1) * 256 ≤ 4096; omega

/-! ## The table the launch memory yields -/

variable (m : (ℓ : Loc nD τ sig) → Buf (Elt F) ℓ)

/-- The sequence a row tile belongs to: tiles `2b` and `2b + 1` are the two halves of sequence `b`. -/
def seqOf (i : grid0.Coords) : Fin 4 := ⟨(i 0).val / 2, Nat.div_lt_of_lt_mul (show (i 0).val < 2 * 4 from (i 0).isLt)⟩

theorem seqOf_val (i : grid0.Coords) : (seqOf i).val = (i 0).val / 2 := rfl

/-- Word `j` of the prefetched table is the id of sequence `j / 2`: the reshape `[4, 2] → [8]` matches position `j`
    with `(j / 2, j % 2)`, and the broadcast along the new axis reads the id at the first coordinate. -/
theorem tbl_eq (j : Fin 8) :
    tbl m 0 (ix1 j) = m (((0 : Dev nD) : Thread nD τ).loc main_arg1) (ix1 (⟨j.val / 2, by omega⟩ : Fin 4)) := by
  unfold tbl
  show StableHlo.after hostOps0 (fun b => m ((0 : Dev nD), b)) (Proc.devRef .tc main_v3) (ix1 j) = _
  after_results
  show shapeCast S8 (broadcastInDim S4x2 ![0] bcast_S4_S4x2_0 (m ((0 : Dev nD), Proc.devRef .tc main_arg1))) shapeCasts_S4x2_S8 (ix1 j) = _
  refine (shapeCast_apply _ _ (ix1 j) (ix2 (⟨j.val / 2, by omega⟩ : Fin 4) (⟨j.val % 2, by omega⟩ : Fin 2)) ?_).trans ?_
  · rw [Shape.rowMajor_val_two, Shape.rowMajor_val_one]
    show (j.val / 2) * 2 + j.val % 2 = j.val
    omega
  · refine broadcastInDim_apply _ _ _ _ (ix1 (⟨j.val / 2, by omega⟩ : Fin 4)) ?_
    intro a
    match a with
    | ⟨0, _⟩ =>
      show j.val / 2 = if (4 : Nat) = 1 then 0 else j.val / 2
      rw [if_neg (by decide)]

/-- For ids in range, word `j` of the table, read unsigned, is the adapter of sequence `j / 2`. -/
theorem tbl_adapter (h : IdsInRange (m (((0 : Dev nD) : Thread nD τ).loc main_arg1))) (j : Fin 8) :
    (tbl m 0 (ix1 j)).toNat = (adapter (m (((0 : Dev nD) : Thread nD τ).loc main_arg1)) (⟨j.val / 2, by omega⟩ : Fin 4)).val := by
  rw [tbl_eq, Cert.MultiLora.adapter_val h]

/-- For ids in range every word of the table is below 8. -/
theorem tbl_lt (h : IdsInRange (m (((0 : Dev nD) : Thread nD τ).loc main_arg1))) (j : Fin 8) : (tbl m 0 (ix1 j)).toNat < 8 := by
  rw [tbl_adapter m h]
  exact (adapter _ _).isLt

/-- THE SIDE CONDITION of the generated frame, from ids in range. -/
theorem ok_of_ids (h : IdsInRange (m (((0 : Dev nD) : Thread nD τ).loc main_arg1))) : Ok m :=
  ok0_of_lt (tbl m) (tbl_lt m h)

/-- Which block of `A` a grid point stages: the adapter of the point's sequence, whole. -/
theorem word_at_3 (h : IdsInRange (m (((0 : Dev nD) : Thread nD τ).loc main_arg1)))
    (hinb : ∀ i : grid0.Coords, ∀ a, (k0_off1 i) a + S1.size a ≤ S8.size a) (h1 : S1.numel = 1) (i : grid0.Coords) :
    cc0_transform_3 hinb h1 (tbl m) i = ![(adapter (m (((0 : Dev nD) : Thread nD τ).loc main_arg1)) (seqOf i)).val, 0, 0] := by
  rw [transform_3_eq, tbl_adapter m h]
  rfl

/-- Which block of `B` a grid point stages: the same adapter, column block `i 1`. -/
theorem word_at_4 (h : IdsInRange (m (((0 : Dev nD) : Thread nD τ).loc main_arg1)))
    (hinb : ∀ i : grid0.Coords, ∀ a, (k0_off1 i) a + S1.size a ≤ S8.size a) (h1 : S1.numel = 1) (i : grid0.Coords) :
    cc0_transform_4 hinb h1 (tbl m) i = ![(adapter (m (((0 : Dev nD) : Thread nD τ).loc main_arg1)) (seqOf i)).val, 0, (i 1).val] := by
  rw [transform_4_eq, tbl_adapter m h]
  rfl

end Cert.KernelIdeal.OkOfPre

namespace Cert.KernelIdeal.OkOfPre

open Cert.KernelIdeal Cert.KernelIdeal.Gen
open Idealize.ShloMosaic Idealize.ShloMosaic.TcCoe Idealize.SL.Sem

/-- The precondition, read on the program's one device, says the ids are in range (its last two conjuncts). -/
theorem ids_in_range [Cert.Pre_finite_inputs.Facts] (m : (ℓ : Loc nD τ sig) → Buf (Elt Ideal) ℓ) (h : Cert.Pre_KernelIdeal m) :
    Cert.MultiLora.IdsInRange (m (((0 : Dev nD) : Thread nD τ).loc main_arg1)) :=
  Cert.MultiLora.ids_of_pre _ _ _ _ _ _ (h 0)

/-- THE SIDE CONDITION from the precondition. -/
theorem ok_of_pre [Cert.Pre_finite_inputs.Facts] (m : (ℓ : Loc nD τ sig) → Buf (Elt Ideal) ℓ) (h : Cert.Pre_KernelIdeal m) : Ok m :=
  ok_of_ids m (ids_in_range m h)

end Cert.KernelIdeal.OkOfPre

end
-- ==== Proof.Pieces.lean ====
/-
  What one grid step of the fused layer leaves behind, as values.

  A step belongs to one of two cases. At the first out-feature tile of a token tile the body stores the token tile
  `x` (converted to the narrower float format, the identity on extended reals) into one carried buffer, its rank-space
  projection `x · A` into the other, and then computes the output tile from those two; at every other out-feature tile
  it computes the output tile from what the carried buffers hold. Each stored value is the body's pure arithmetic
  (the payload terms) of the blocks the step was handed: every store covers its whole buffer, so what a buffer holds
  afterwards is the one payload stored into it, and a load that follows a store reads that payload back.
-/
import proofs.«108454_g45956150067888_cont_8to1_c_53_5_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First out-feature tile: the carried token-tile buffer ends at the converted token tile. -/
theorem tokens_first (c : Dev nD) (i : grid0.Coords) (arg3 : Memref sig .tc .vmem S1024x4096 .f32) (harg3 : arg3.IsWhole) (arg4 : Memref sig .tc .vmem S256x4096 .f32) (harg4 : arg4.IsWhole) (arg5 : Memref sig .tc .vmem S1x256 .f32) (harg5 : arg5.IsWhole) (arg6 : Memref sig .tc .vmem S1x4096x64 .f32) (harg6 : arg6.IsWhole) (arg7 : Memref sig .tc .vmem S1x64x256 .f32) (harg7 : arg7.IsWhole) (arg8 : Memref sig .tc .vmem S1024x256 .f32) (harg8 : arg8.IsWhole) (arg9 : Memref sig .tc .vmem S1024x64 .bf16) (harg9 : arg9.IsWhole) (arg10 : Memref sig .tc .vmem S1024x4096 .bf16) (harg10 : arg10.IsWhole) (hc0 : cond0_0 i)
    (x0 : Vec F S1024x4096 .f32) (x1 : Vec F S256x4096 .f32) (x2 : Vec F S1x256 .f32) (x3 : Vec F S1x4096x64 .f32) (x4 : Vec F S1x64x256 .f32) (xt0 : TbBuf0 (F := F) c tbM0_0) :
    sout0_A_1 c i arg3 harg3 arg4 harg4 arg5 harg5 arg6 harg6 arg7 harg7 arg8 harg8 arg9 harg9 arg10 harg10 hc0 x0 x1 x2 x3 x4 xt0 = k0_pay1 x0 := by
  unfold sout0_A_1
  rw [View.read_writes_eq_canon _ _ _ (scover0_A_1 c i arg3 harg3 arg4 harg4 arg5 harg5 arg6 harg6 arg7 harg7 arg8 harg8 arg9 harg9 arg10 harg10 hc0 x0 x1 x2 x3 x4 xt0)]
  unfold kernelRun0_A
  dsimp only
  sl_unfold_words
  rw [View.canon_unit_zero hz2]
  simp only [View.readAt_eq_ld, harg3.read_unread, harg4.read_unread, harg5.read_unread, harg6.read_unread, harg7.read_unread,
    harg9.read_unread, harg10.read_unread, View.ld_unit_zero (S := S1024x4096) hz2, View.ld_unit_zero (S := S256x4096) hz2,
    View.ld_unit_zero (S := S1x256) hz2, View.ld_unit_zero (S := S1024x64) hz2, View.ld_unit_zero (S := S1x4096x64) hz3,
    View.ld_unit_zero (S := S1x64x256) hz3, View.readCov_unit_zero (S := S1024x4096) _ hz2, View.readCov_unit_zero (S := S1024x64) _ hz2]

/-- First out-feature tile: the carried rank-space buffer ends at the projection of the converted token tile by the
    adapter's `A` block. -/
theorem rank_first (c : Dev nD) (i : grid0.Coords) (arg3 : Memref sig .tc .vmem S1024x4096 .f32) (harg3 : arg3.IsWhole) (arg4 : Memref sig .tc .vmem S256x4096 .f32) (harg4 : arg4.IsWhole) (arg5 : Memref sig .tc .vmem S1x256 .f32) (harg5 : arg5.IsWhole) (arg6 : Memref sig .tc .vmem S1x4096x64 .f32) (harg6 : arg6.IsWhole) (arg7 : Memref sig .tc .vmem S1x64x256 .f32) (harg7 : arg7.IsWhole) (arg8 : Memref sig .tc .vmem S1024x256 .f32) (harg8 : arg8.IsWhole) (arg9 : Memref sig .tc .vmem S1024x64 .bf16) (harg9 : arg9.IsWhole) (arg10 : Memref sig .tc .vmem S1024x4096 .bf16) (harg10 : arg10.IsWhole) (hc0 : cond0_0 i)
    (x0 : Vec F S1024x4096 .f32) (x1 : Vec F S256x4096 .f32) (x2 : Vec F S1x256 .f32) (x3 : Vec F S1x4096x64 .f32) (x4 : Vec F S1x64x256 .f32) (xt0 : TbBuf0 (F := F) c tbM0_0) :
    sout0_A_0 c i arg3 harg3 arg4 harg4 arg5 harg5 arg6 harg6 arg7 harg7 arg8 harg8 arg9 harg9 arg10 harg10 hc0 x0 x1 x2 x3 x4 xt0 = k0_pay2 (k0_pay1 x0) x3 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 xt0)]
  unfold kernelRun0_A
  dsimp only
  sl_unfold_words
  rw [View.canon_unit_zero hz2]
  simp only [View.readAt_eq_ld, harg3.read_unread, harg4.read_unread, harg5.read_unread, harg6.read_unread, harg7.read_unread,
    harg9.read_unread, harg10.read_unread, View.ld_unit_zero (S := S1024x4096) hz2, View.ld_unit_zero (S := S256x4096) hz2,
    View.ld_unit_zero (S := S1x256) hz2, View.ld_unit_zero (S := S1024x64) hz2, View.ld_unit_zero (S := S1x4096x64) hz3,
    View.ld_unit_zero (S := S1x64x256) hz3, View.readCov_unit_zero (S := S1024x4096) _ hz2, View.readCov_unit_zero (S := S1024x64) _ hz2]

/-- First out-feature tile: the output tile, computed from the two values just stored. -/
theorem out_first (c : Dev nD) (i : grid0.Coords) (arg3 : Memref sig .tc .vmem S1024x4096 .f32) (harg3 : arg3.IsWhole) (arg4 : Memref sig .tc .vmem S256x4096 .f32) (harg4 : arg4.IsWhole) (arg5 : Memref sig .tc .vmem S1x256 .f32) (harg5 : arg5.IsWhole) (arg6 : Memref sig .tc .vmem S1x4096x64 .f32) (harg6 : arg6.IsWhole) (arg7 : Memref sig .tc .vmem S1x64x256 .f32) (harg7 : arg7.IsWhole) (arg8 : Memref sig .tc .vmem S1024x256 .f32) (harg8 : arg8.IsWhole) (arg9 : Memref sig .tc .vmem S1024x64 .bf16) (harg9 : arg9.IsWhole) (arg10 : Memref sig .tc .vmem S1024x4096 .bf16) (harg10 : arg10.IsWhole) (hc0 : cond0_0 i)
    (x0 : Vec F S1024x4096 .f32) (x1 : Vec F S256x4096 .f32) (x2 : Vec F S1x256 .f32) (x3 : Vec F S1x4096x64 .f32) (x4 : Vec F S1x64x256 .f32) (xt0 : TbBuf0 (F := F) c tbM0_0) :
    out0_A_5 c i arg3 harg3 arg4 harg4 arg5 harg5 arg6 harg6 arg7 harg7 arg8 harg8 arg9 harg9 arg10 harg10 hc0 x0 x1 x2 x3 x4 xt0 = k0_pay3 (k0_pay1 x0) x1 (k0_pay2 (k0_pay1 x0) x3) x4 x2 := by
  unfold out0_A_5
  rw [View.read_writes_eq_canon _ _ _ (cover0_A_5 c i arg3 harg3 arg4 harg4 arg5 harg5 arg6 harg6 arg7 harg7 arg8 harg8 arg9 harg9 arg10 harg10 hc0 x0 x1 x2 x3 x4 xt0)]
  unfold kernelRun0_A
  dsimp only
  sl_unfold_words
  rw [View.canon_unit_zero hz2]
  simp only [View.readAt_eq_ld, harg3.read_unread, harg4.read_unread, harg5.read_unread, harg6.read_unread, harg7.read_unread,
    harg9.read_unread, harg10.read_unread, View.ld_unit_zero (S := S1024x4096) hz2, View.ld_unit_zero (S := S256x4096) hz2,
    View.ld_unit_zero (S := S1x256) hz2, View.ld_unit_zero (S := S1024x64) hz2, View.ld_unit_zero (S := S1x4096x64) hz3,
    View.ld_unit_zero (S := S1x64x256) hz3, View.readCov_unit_zero (S := S1024x4096) _ hz2, View.readCov_unit_zero (S := S1024x64) _ hz2]

/-- Any other out-feature tile: the output tile, computed from what the carried buffers hold. -/
theorem out_later (c : Dev nD) (i : grid0.Coords) (arg3 : Memref sig .tc .vmem S1024x4096 .f32) (harg3 : arg3.IsWhole) (arg4 : Memref sig .tc .vmem S256x4096 .f32) (harg4 : arg4.IsWhole) (arg5 : Memref sig .tc .vmem S1x256 .f32) (harg5 : arg5.IsWhole) (arg6 : Memref sig .tc .vmem S1x4096x64 .f32) (harg6 : arg6.IsWhole) (arg7 : Memref sig .tc .vmem S1x64x256 .f32) (harg7 : arg7.IsWhole) (arg8 : Memref sig .tc .vmem S1024x256 .f32) (harg8 : arg8.IsWhole) (arg9 : Memref sig .tc .vmem S1024x64 .bf16) (harg9 : arg9.IsWhole) (arg10 : Memref sig .tc .vmem S1024x4096 .bf16) (harg10 : arg10.IsWhole) (hc0 : ¬cond0_0 i)
    (x0 : Vec F S1024x4096 .f32) (x1 : Vec F S256x4096 .f32) (x2 : Vec F S1x256 .f32) (x3 : Vec F S1x4096x64 .f32) (x4 : Vec F S1x64x256 .f32) (xt0 : TbBuf0 (F := F) c tbM0_0) (xs0 : Vec F S1024x64 .bf16) (xs1 : Vec F S1024x4096 .bf16) :
    out0_B_5 c i arg3 harg3 arg4 harg4 arg5 harg5 arg6 harg6 arg7 harg7 arg8 harg8 arg9 harg9 arg10 harg10 hc0 x0 x1 x2 x3 x4 xt0 xs0 xs1 = k0_pay3 xs1 x1 xs0 x4 x2 := by
  unfold out0_B_5
  rw [View.read_writes_eq_canon _ _ _ (cover0_B_5 c i arg3 harg3 arg4 harg4 arg5 harg5 arg6 harg6 arg7 harg7 arg8 harg8 arg9 harg9 arg10 harg10 hc0 x0 x1 x2 x3 x4 xt0 xs0 xs1)]
  unfold kernelRun0_B
  dsimp only
  sl_unfold_words
  rw [View.canon_unit_zero hz2]
  simp only [View.readAt_eq_ld, harg3.read_unread, harg4.read_unread, harg5.read_unread, harg6.read_unread, harg7.read_unread,
    harg9.read_unread, harg10.read_unread, View.ld_unit_zero (S := S1024x4096) hz2, View.ld_unit_zero (S := S256x4096) hz2,
    View.ld_unit_zero (S := S1x256) hz2, View.ld_unit_zero (S := S1024x64) hz2, View.ld_unit_zero (S := S1x4096x64) hz3,
    View.ld_unit_zero (S := S1x64x256) hz3, View.readCov_unit_zero (S := S1024x4096) _ hz2, View.readCov_unit_zero (S := S1024x64) _ hz2]

end Cert.KernelIdeal.Pieces
end
-- ==== Proof.StepValues.lean ====
/-
  What the output tile and the two carried buffers hold after each grid step, in terms of the body's arithmetic.

  At the first out-feature tile of a token tile the step computes everything from its own blocks; at any other it
  computes the output tile from its own weight, `B` and bias blocks and from what the previous step left in the carried
  buffers, which it leaves as they were.
-/
import proofs.«108454_g45956150067888_cont_8to1_c_53_5_alg».proof.Proof.Pieces

set_option maxRecDepth 16384

noncomputable section

open Idealize.ShloMosaic Idealize.ShloMosaic.TcCoe Idealize.SL.Sem
open Idealize.ShloMosaic.Pipeline (Dat)

namespace Cert.KernelIdeal.StepValues

open Cert.KernelIdeal Cert.KernelIdeal.Gen

variable {F : FTy → Type} [FloatOps F]
variable (m : (ℓ : Loc nD τ sig) → Buf (Elt F) ℓ) (hO : Ok m) (c : Dev nD)

/-- A step at the first out-feature tile of its token tile: the output tile, -/
theorem first_out (t : Fin (cfgM m hO).N) (h0 : t.val % 16 = 0) :
    (outsAt0 m hO c t.val t.isLt).1
      = k0_pay3 (k0_pay1 (iblk m hO c 0 t)) (iblk m hO c 1 t) (k0_pay2 (k0_pay1 (iblk m hO c 0 t)) (iblk m hO c 3 t)) (iblk m hO c 4 t) (iblk m hO c 2 t) := by
  rw [outsAt0_A m hO c t h0]
  dsimp only
  exact (Pieces.out_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (tbl m 0))

/-- the carried rank-space buffer, -/
theorem first_rank (t : Fin (cfgM m hO).N) (h0 : t.val % 16 = 0) :
    (outsAt0 m hO c t.val t.isLt).2.1 = k0_pay2 (k0_pay1 (iblk m hO c 0 t)) (iblk m hO c 3 t) := by
  rw [outsAt0_A m hO c t h0]
  dsimp only
  exact (Pieces.rank_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (tbl m 0))

/-- and the carried token buffer. -/
theorem first_tokens (t : Fin (cfgM m hO).N) (h0 : t.val % 16 = 0) :
    (outsAt0 m hO c t.val t.isLt).2.2 = k0_pay1 (iblk m hO c 0 t) := by
  rw [outsAt0_A m hO c t h0]
  dsimp only
  exact (Pieces.tokens_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (iblk m hO c 0 t) (iblk m hO c 1 t) (iblk m hO c 2 t) (iblk m hO c 3 t) (iblk m hO c 4 t) (tbl m 0))

/-- A step at any other out-feature tile: the output tile from what the previous step left, -/
theorem later_out (t : Fin (cfgM m hO).N) (h0 : ¬t.val % 16 = 0) :
    (outsAt0 m hO c t.val t.isLt).1
      = k0_pay3 (outsAt0 m hO c (t.val - 1) (Nat.lt_of_le_of_lt (Nat.sub_le _ _) t.isLt)).2.2 (iblk m hO c 1 t)
          (outsAt0 m hO c (t.val - 1) (Nat.lt_of_le_of_lt (Nat.sub_le _ _) t.isLt)).2.1 (iblk m hO c 4 t) (iblk m hO c 2 t) := by
  rw [outsAt0_B m hO c t h0]
  dsimp only
  exact (Pieces.out_later c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (iblk m hO c 0 t) (iblk m hO c 1 t) (iblk m hO c 2 t) (iblk m hO c 3 t) (iblk m hO c 4 t) (tbl m 0)
      (outsAt0 m hO c (t.val - 1) (Nat.lt_of_le_of_lt (Nat.sub_le _ _) t.isLt)).2.1
      (outsAt0 m hO c (t.val - 1) (Nat.lt_of_le_of_lt (Nat.sub_le _ _) t.isLt)).2.2)

/-- and the carried buffers as they were. -/
theorem later_rank (t : Fin (cfgM m hO).N) (h0 : ¬t.val % 16 = 0) :
    (outsAt0 m hO c t.val t.isLt).2.1 = (outsAt0 m hO c (t.val - 1) (Nat.lt_of_le_of_lt (Nat.sub_le _ _) t.isLt)).2.1 := by
  rw [outsAt0_B m hO c t h0]
  rfl

theorem later_tokens (t : Fin (cfgM m hO).N) (h0 : ¬t.val % 16 = 0) :
    (outsAt0 m hO c t.val t.isLt).2.2 = (outsAt0 m hO c (t.val - 1) (Nat.lt_of_le_of_lt (Nat.sub_le _ _) t.isLt)).2.2 := by
  rw [outsAt0_B m hO c t h0]
  rfl

end Cert.KernelIdeal.StepValues
end
-- ==== Proof.Blocks.lean ====
/-
  Which entries of the arrays a grid step is handed.

  The grid has 8 token tiles of 1024 rows by 16 out-feature tiles of 256 columns; step `t` is token tile `t / 16`,
  out-feature tile `t % 16`. Its blocks are: rows `1024·(t/16) + p` of the token matrix; rows `256·(t%16) + q` of the base
  weight; columns `256·(t%16) + q` of the bias row; the whole `A` slab, and columns `256·(t%16) + q` of the `B` slab, of the
  adapter whose number is word `t / 16` of the table of per-tile adapter ids; and it writes rows `1024·(t/16) + p`,
  columns `256·(t%16) + q` of the output. Every fact is proved for an arbitrary table and instantiated last.
-/
import proofs.«108454_g45956150067888_cont_8to1_c_53_5_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]

theorem grid_facts : ∀ t : Fin grid0.N, (grid0.coords t 0).val = t.val / 16 ∧ (grid0.coords t 1).val = t.val % 16 := by decide +kernel

theorem tr_plain : ∀ t : Fin grid0.N, cc0_transform_0 (grid0.coords t) = ![t.val / 16, 0] ∧ cc0_transform_1 (grid0.coords t) = ![t.val % 16, 0]
    ∧ cc0_transform_2 (grid0.coords t) = ![0, t.val % 16] ∧ cc0_transform_5 (grid0.coords t) = ![t.val / 16, t.val % 16] := by decide +kernel

/-- the one index of a unit rectangle at offset n of the 8-word table -/
theorem unit_emb (n : Nat) (hn : n < 8) (inb : ∀ a, (![n] : Fin 1 → Nat) a + S1.size a ≤ S8.size a) (h1 : 0 < (Rect.unit (s := S8) ![n] S1.size inb).shape.numel) :
    (Rect.unit (s := S8) ![n] S1.size inb).emb (Shape.Idx.first h1) = ix1 (⟨n, hn⟩ : Fin 8) := by
  funext a
  apply Fin.ext
  fin_cases a
  show n + 1 * (Shape.Idx.first h1 (0 : Fin 1)).val = n
  have : (Shape.Idx.first h1 (0 : Fin 1)).val = 0 := by
    have := (Shape.Idx.first h1 (0 : Fin 1)).isLt
    have e : (Rect.unit (s := S8) ![n] S1.size inb).shape.size (0 : Fin 1) = 1 := rfl
    omega
  omega

theorem at_unit (pf : pre0.Contents (Elt F)) (n : Nat) (hn : n < 8) (off : Fin 1 → Nat) (hoff : off = ![n])
    (inb : ∀ a, off a + S1.size a ≤ S8.size a) :
    pf.at 0 (Rect.unit (s := S8) off S1.size inb) numel1_S1 = pf 0 (ix1 (⟨n, hn⟩ : Fin 8)) := by
  subst hoff
  exact congrArg (pf 0) (unit_emb n hn inb _)

theorem cast_coord (n : Nat) (hn : n < 8) : (Scalar.indexCast (BitVec.ofNat 32 n)).toNat = n := by
  show (BitVec.ofNat 32 n).toNat = n
  rw [BitVec.toNat_ofNat]; omega

theorem tr3 (pf : pre0.Contents (Elt F)) (i : grid0.Coords) :
    cc0_transform_3 k0_off1_inb numel1_S1 pf i = ![(pf 0 (ix1 (⟨(i 0).val, (i 0).isLt⟩ : Fin 8))).toNat, 0, 0] := by
  have hi : (i 0).val < 8 := (i 0).isLt
  exact congrArg (fun w : BitVec 32 => (![w.toNat, 0, 0] : Fin 3 → Nat))
    (at_unit pf (i 0).val hi _ (congrArg (fun n => (![n] : Fin 1 → Nat)) (cast_coord _ hi)) (k0_off1_inb i))

theorem tr4 (pf : pre0.Contents (Elt F)) (i : grid0.Coords) :
    cc0_transform_4 k0_off1_inb numel1_S1 pf i = ![(pf 0 (ix1 (⟨(i 0).val, (i 0).isLt⟩ : Fin 8))).toNat, 0, (BitVec.ofNat 32 (i 1).val).toNat] := by
  have hi : (i 0).val < 8 := (i 0).isLt
  exact congrArg (fun w : BitVec 32 => (![w.toNat, 0, (BitVec.ofNat 32 (i 1).val).toNat] : Fin 3 → Nat))
    (at_unit pf (i 0).val hi _ (congrArg (fun n => (![n] : Fin 1 → Nat)) (cast_coord _ hi)) (k0_off1_inb i))

theorem lt_N (a : (pcfg0 (F := F)).Adm) (t : Fin (cfg0 a).N) : t.val < 128 := lt_of_lt_of_eq t.isLt N_0

/-- Token tile and out-feature tile of step `t`. -/
abbrev tok (t : Nat) : Nat := t / 16
abbrev otl (t : Nat) : Nat := t % 16

/-- The adapter word step `t` reads: word `t / 16` of the table. -/
def word (pf : pre0.Contents (Elt F)) (t : Nat) (ht : t < 128) : BitVec 32 := pf 0 (ix1 (⟨t / 16, by omega⟩ : Fin 8))

theorem index3 (pf : pre0.Contents (Elt F)) (t : Fin grid0.N) (ht : t.val < 128) :
    cc0_transform_3 k0_off1_inb numel1_S1 pf (grid0.coords t) = ![(word pf t.val ht).toNat, 0, 0] := by
  have h := tr3 pf (grid0.coords t)
  have hf : (⟨(grid0.coords t 0).val, (grid0.coords t 0).isLt⟩ : Fin 8) = ⟨t.val / 16, by omega⟩ := Fin.ext (grid_facts t).1
  rw [hf] at h
  exact h

theorem index4 (pf : pre0.Contents (Elt F)) (t : Fin grid0.N) (ht : t.val < 128) :
    cc0_transform_4 k0_off1_inb numel1_S1 pf (grid0.coords t) = ![(word pf t.val ht).toNat, 0, t.val % 16] := by
  have h := tr4 pf (grid0.coords t)
  have hf : (⟨(grid0.coords t 0).val, (grid0.coords t 0).isLt⟩ : Fin 8) = ⟨t.val / 16, by omega⟩ := Fin.ext (grid_facts t).1
  have h1 : (BitVec.ofNat 32 (grid0.coords t 1).val).toNat = t.val % 16 := by
    rw [BitVec.toNat_ofNat, (grid_facts t).2]; omega
  rw [hf, h1] at h
  exact h

/-- Under the side condition that every table-indexed block lies inside its array, the adapter word of every step is
    one of the eight adapters. -/
theorem word_lt (pf : pre0.Contents (Elt F)) (hok : ok0 (F := F) pf) (t : Fin grid0.N) (ht : t.val < 128) :
    (word pf t.val ht).toNat < 8 := by
  obtain ⟨h, -⟩ := hok.1 (grid0.coords t)
  have h0 := h (0 : Fin 3)
  rw [index3 pf t ht] at h0
  have h1 : ((word pf t.val ht).toNat + 1) * 1 ≤ 8 := h0
  omega

/-- Rows of the token matrix. -/
theorem emb0 (a : (pcfg0 (F := F)).Adm) (t : Fin (cfg0 a).N) (p : Fin 1024) (d : Fin 4096) :
    ((((cfg0 a).win 0).blk t).view.emb (ix2 p d) : S8192x4096.Idx)
      = ix2 (⟨1024 * (t.val / 16) + p.val, by have := lt_N a t; have := p.isLt; omega⟩ : Fin 8192) d := by
  obtain ⟨e0, e1, e2, e5⟩ := tr_plain t
  funext ax; apply Fin.ext
  match ax with
  | ⟨0, _⟩ => show cc0_transform_0 (grid0.coords t) (0 : Fin 2) * 1024 + 1 * p.val = 1024 * (t.val / 16) + p.val
              rw [e0]; show t.val / 16 * 1024 + 1 * p.val = _; omega
  | ⟨1, _⟩ => show cc0_transform_0 (grid0.coords t) (1 : Fin 2) * 4096 + 1 * d.val = d.val
              rw [e0]; show 0 * 4096 + 1 * d.val = _; omega

/-- Rows of the base weight. -/
theorem emb1 (a : (pcfg0 (F := F)).Adm) (t : Fin (cfg0 a).N) (q : Fin 256) (d : Fin 4096) :
    ((((cfg0 a).win 1).blk t).view.emb (ix2 q d) : S4096x4096.Idx)
      = ix2 (⟨256 * (t.val % 16) + q.val, by have := q.isLt; omega⟩ : Fin 4096) d := by
  obtain ⟨e0, e1, e2, e5⟩ := tr_plain t
  funext ax; apply Fin.ext
  match ax with
  | ⟨0, _⟩ => show cc0_transform_1 (grid0.coords t) (0 : Fin 2) * 256 + 1 * q.val = 256 * (t.val % 16) + q.val
              rw [e1]; show t.val % 16 * 256 + 1 * q.val = _; omega
  | ⟨1, _⟩ => show cc0_transform_1 (grid0.coords t) (1 : Fin 2) * 4096 + 1 * d.val = d.val
              rw [e1]; show 0 * 4096 + 1 * d.val = _; omega

/-- Columns of the bias row. -/
theorem emb2 (a : (pcfg0 (F := F)).Adm) (t : Fin (cfg0 a).N) (q : Fin 256) :
    ((((cfg0 a).win 2).blk t).view.emb (ix2 (0 : Fin 1) q) : S1x4096.Idx)
      = ix2 (0 : Fin 1) (⟨256 * (t.val % 16) + q.val, by have := q.isLt; omega⟩ : Fin 4096) := by
  obtain ⟨e0, e1, e2, e5⟩ := tr_plain t
  funext ax; apply Fin.ext
  match ax with
  | ⟨0, _⟩ => show cc0_transform_2 (grid0.coords t) (0 : Fin 2) * 1 + 1 * 0 = 0
              rw [e2]; rfl
  | ⟨1, _⟩ => show cc0_transform_2 (grid0.coords t) (1 : Fin 2) * 256 + 1 * q.val = 256 * (t.val % 16) + q.val
              rw [e2]; show t.val % 16 * 256 + 1 * q.val = _; omega

/-- The `A` slab of the step's adapter. -/
theorem emb3 (a : (pcfg0 (F := F)).Adm) (t : Fin (cfg0 a).N) (L : Fin 8) (hL : (word a.1 t.val (lt_N a t)).toNat = L.val)
    (d : Fin 4096) (k : Fin 64) :
    ((((cfg0 a).win 3).blk t).view.emb (ix3 (0 : Fin 1) d k) : S8x4096x64.Idx) = ix3 L d k := by
  have e3 := index3 a.1 t (lt_N a t)
  funext ax; apply Fin.ext
  match ax with
  | ⟨0, _⟩ => show cc0_transform_3 k0_off1_inb numel1_S1 a.1 (grid0.coords t) (0 : Fin 3) * 1 + 1 * 0 = L.val
              rw [e3]; show (word a.1 t.val (lt_N a t)).toNat * 1 + 1 * 0 = _; omega
  | ⟨1, _⟩ => show cc0_transform_3 k0_off1_inb numel1_S1 a.1 (grid0.coords t) (1 : Fin 3) * 4096 + 1 * d.val = d.val
              rw [e3]; show 0 * 4096 + 1 * d.val = _; omega
  | ⟨2, _⟩ => show cc0_transform_3 k0_off1_inb numel1_S1 a.1 (grid0.coords t) (2 : Fin 3) * 64 + 1 * k.val = k.val
              rw [e3]; show 0 * 64 + 1 * k.val = _; omega

/-- Columns of the `B` slab of the step's adapter. -/
theorem emb4 (a : (pcfg0 (F := F)).Adm) (t : Fin (cfg0 a).N) (L : Fin 8) (hL : (word a.1 t.val (lt_N a t)).toNat = L.val)
    (k : Fin 64) (q : Fin 256) :
    ((((cfg0 a).win 4).blk t).view.emb (ix3 (0 : Fin 1) k q) : S8x64x4096.Idx)
      = ix3 L k (⟨256 * (t.val % 16) + q.val, by have := q.isLt; omega⟩ : Fin 4096) := by
  have e4 := index4 a.1 t (lt_N a t)
  funext ax; apply Fin.ext
  match ax with
  | ⟨0, _⟩ => show cc0_transform_4 k0_off1_inb numel1_S1 a.1 (grid0.coords t) (0 : Fin 3) * 1 + 1 * 0 = L.val
              rw [e4]; show (word a.1 t.val (lt_N a t)).toNat * 1 + 1 * 0 = _; omega
  | ⟨1, _⟩ => show cc0_transform_4 k0_off1_inb numel1_S1 a.1 (grid0.coords t) (1 : Fin 3) * 64 + 1 * k.val = k.val
              rw [e4]; show 0 * 64 + 1 * k.val = _; omega
  | ⟨2, _⟩ => show cc0_transform_4 k0_off1_inb numel1_S1 a.1 (grid0.coords t) (2 : Fin 3) * 256 + 1 * q.val = 256 * (t.val % 16) + q.val
              rw [e4]; show t.val % 16 * 256 + 1 * q.val = _; omega

/-- The output tile's place in the output matrix. -/
theorem emb5 (a : (pcfg0 (F := F)).Adm) (t : Fin (cfg0 a).N) (p : Fin 1024) (q : Fin 256) :
    ((((cfg0 a).win 5).blk t).view.emb (ix2 p q) : S8192x4096.Idx)
      = ix2 (⟨1024 * (t.val / 16) + p.val, by have := lt_N a t; have := p.isLt; omega⟩ : Fin 8192)
          (⟨256 * (t.val % 16) + q.val, by have := q.isLt; omega⟩ : Fin 4096) := by
  obtain ⟨e0, e1, e2, e5⟩ := tr_plain t
  funext ax; apply Fin.ext
  match ax with
  | ⟨0, _⟩ => show cc0_transform_5 (grid0.coords t) (0 : Fin 2) * 1024 + 1 * p.val = 1024 * (t.val / 16) + p.val
              rw [e5]; show t.val / 16 * 1024 + 1 * p.val = _; omega
  | ⟨1, _⟩ => show cc0_transform_5 (grid0.coords t) (1 : Fin 2) * 256 + 1 * q.val = 256 * (t.val % 16) + q.val
              rw [e5]; show t.val % 16 * 256 + 1 * q.val = _; omega

end Cert.KernelIdeal.Blocks
end
-- ==== Proof.Tiles.lean ====
/-
  The blocks of a grid step, read at an entry, in closed form.

  Step `n` works on rows `1024·(n/16) + p` of the token matrix and on columns `256·(n%16) + q` of the out features, with
  the adapter whose number is word `n / 16` of the per-tile table. The row, column and adapter of a step are written
  here as total functions of the step's number (reduced modulo the array extents, which changes nothing for the 128
  steps of the grid), so that statements about all steps need no side proofs; consecutive steps of one token tile
  share their rows and their adapter.
-/
import proofs.«108454_g45956150067888_cont_8to1_c_53_5_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tiles

open Cert.KernelIdeal Cert.KernelIdeal.Gen

variable {F : FTy → Type} [FloatOps F]

/-- Row `p` of step `n`'s token tile, in the token matrix. -/
def row (n : ℕ) (p : Fin 1024) : Fin 8192 := ⟨(1024 * (n / 16) + p.val) % 8192, Nat.mod_lt _ (by decide)⟩
/-- Column `q` of step `n`'s out-feature tile. -/
def col (n : ℕ) (q : Fin 256) : Fin 4096 := ⟨(256 * (n % 16) + q.val) % 4096, Nat.mod_lt _ (by decide)⟩
/-- The adapter of step `n`: word `n / 16` of the table. -/
def adp (pf : pre0.Contents (Elt F)) (n : ℕ) : Fin 8 :=
  ⟨(pf 0 (ix1 (⟨(n / 16) % 8, Nat.mod_lt _ (by decide)⟩ : Fin 8))).toNat % 8, Nat.mod_lt _ (by decide)⟩

theorem row_eq (n : ℕ) (hn : n < 128) (p : Fin 1024) (h : 1024 * (n / 16) + p.val < 8192) :
    (⟨1024 * (n / 16) + p.val, h⟩ : Fin 8192) = row n p :=
  Fin.ext (Nat.mod_eq_of_lt h).symm

theorem col_eq (n : ℕ) (q : Fin 256) (h : 256 * (n % 16) + q.val < 4096) :
    (⟨256 * (n % 16) + q.val, h⟩ : Fin 4096) = col n q :=
  Fin.ext (Nat.mod_eq_of_lt h).symm

/-- Under the side condition, the word a step reads IS its adapter's number. -/
theorem word_adp (pf : pre0.Contents (Elt F)) (hok : ok0 (F := F) pf) (t : Fin grid0.N) (ht : t.val < 128) :
    (Blocks.word pf t.val ht).toNat = (adp pf t.val).val := by
  have hlt := Blocks.word_lt pf hok t ht
  have hf : (⟨(t.val / 16) % 8, Nat.mod_lt _ (by decide)⟩ : Fin 8) = ⟨t.val / 16, by omega⟩ := Fin.ext (Nat.mod_eq_of_lt (by omega))
  show _ = (pf 0 (ix1 (⟨(t.val / 16) % 8, _⟩ : Fin 8))).toNat % 8
  rw [hf]
  unfold Blocks.word at hlt ⊢
  omega

/-- Steps of one token tile share their rows and their adapter. -/
theorem row_pred (n : ℕ) (h : ¬n % 16 = 0) (p : Fin 1024) : row (n - 1) p = row n p := by
  have e : (n - 1) / 16 = n / 16 := by omega
  apply Fin.ext
  show (1024 * ((n - 1) / 16) + p.val) % 8192 = (1024 * (n / 16) + p.val) % 8192
  rw [e]

theorem adp_pred (pf : pre0.Contents (Elt F)) (n : ℕ) (h : ¬n % 16 = 0) : adp pf (n - 1) = adp pf n := by
  have e : (n - 1) / 16 = n / 16 := by omega
  have hf : (⟨((n - 1) / 16) % 8, Nat.mod_lt _ (by decide)⟩ : Fin 8) = ⟨(n / 16) % 8, Nat.mod_lt _ (by decide)⟩ :=
    Fin.ext (by show ((n - 1) / 16) % 8 = (n / 16) % 8; rw [e])
  apply Fin.ext
  show (pf 0 (ix1 (⟨((n - 1) / 16) % 8, _⟩ : Fin 8))).toNat % 8 = (pf 0 (ix1 (⟨(n / 16) % 8, _⟩ : Fin 8))).toNat % 8
  rw [hf]

variable (m : (ℓ : Loc nD τ sig) → Buf (Elt F) ℓ) (hO : Ok m) (c : Dev nD)

theorem iblk0 (t : Fin (cfgM m hO).N) (p : Fin 1024) (d : Fin 4096) :
    iblk m hO c 0 t (ix2 p d) = V m c main_v0 (ix2 (row t.val p) d) := by
  show V m c main_v0 ((((cfgM m hO).win 0).blk t).view.emb _) = _
  refine congrArg (V m c main_v0) ((Blocks.emb0 (adm m hO) t p d).trans ?_)
  rw [row_eq t.val (Blocks.lt_N (adm m hO) t) p]

theorem iblk1 (t : Fin (cfgM m hO).N) (q : Fin 256) (d : Fin 4096) :
    iblk m hO c 1 t (ix2 q d) = V m c main_arg2 (ix2 (col t.val q) d) := by
  show V m c main_arg2 ((((cfgM m hO).win 1).blk t).view.emb _) = _
  refine congrArg (V m c main_arg2) ((Blocks.emb1 (adm m hO) t q d).trans ?_)
  rw [col_eq t.val q]

theorem iblk2 (t : Fin (cfgM m hO).N) (q : Fin 256) :
    iblk m hO c 2 t (ix2 (0 : Fin 1) q) = V m c main_v1 (ix2 (0 : Fin 1) (col t.val q)) := by
  show V m c main_v1 ((((cfgM m hO).win 2).blk t).view.emb _) = _
  refine congrArg (V m c main_v1) ((Blocks.emb2 (adm m hO) t q).trans ?_)
  rw [col_eq t.val q]

theorem iblk3 (t : Fin (cfgM m hO).N) (d : Fin 4096) (k : Fin 64) :
    iblk m hO c 3 t (ix3 (0 : Fin 1) d k) = V m c main_arg4 (ix3 (adp (tbl m) t.val) d k) := by
  show V m c main_arg4 ((((cfgM m hO).win 3).blk t).view.emb _) = _
  exact congrArg (V m c main_arg4) (Blocks.emb3 (adm m hO) t (adp (tbl m) t.val)
    (word_adp (tbl m) hO t (Blocks.lt_N (adm m hO) t)) d k)

theorem iblk4 (t : Fin (cfgM m hO).N) (k : Fin 64) (q : Fin 256) :
    iblk m hO c 4 t (ix3 (0 : Fin 1) k q) = V m c main_arg5 (ix3 (adp (tbl m) t.val) k (col t.val q)) := by
  show V m c main_arg5 ((((cfgM m hO).win 4).blk t).view.emb _) = _
  refine congrArg (V m c main_arg5) ((Blocks.emb4 (adm m hO) t (adp (tbl m) t.val)
    (word_adp (tbl m) hO t (Blocks.lt_N (adm m hO) t)) k q).trans ?_)
  rw [col_eq t.val q]

end Cert.KernelIdeal.Tiles
end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibRowOps.lean ====
/-
  Rank-2 blocks read at an index: three steps that a row-wise kernel body takes on a `[1, 1, a, b]` staging block.

  * `shapeCast_11ab_ab_apply` / `shapeCast_ab_11ab_apply`: dropping or adding the two leading unit axes keeps the entry
    at `(p, c)`;
  * `multiReduction_maximumf_lanes_apply`: a lane maximum of an `[a, b]` vector, at the ideal values, reads at row `p`
    the fold of `max` from the accumulator's value over the entries `(p, k)`, `k : Fin b`;
  * `matmul_zero_rows_ix2`: a product `[M, K] × [N, K]` contracting the second axis of BOTH operands (rows against rows,
    `A · Bᵀ`), accumulated into the zero splat, reads at `(p, q)` the sum over `k : Fin K` of `lhs (p, k) * rhs (q, k)`.
  All for any extents.
-/
import Idealize.ShloMosaic.Lib.Pipeline.Value
import Idealize.ShloMosaic.Lib.ValueIdx
import Idealize.ShloMosaic.PureOps.Ideal.Laws

noncomputable section

open scoped BigOperators

namespace Cert.LibRowOps

open Idealize.ShloMosaic Idealize.ShloMosaic.ValueIdx

variable {α : Type}

/-- A `[1, 1, a, b]` block read as the matrix `[a, b]`: entry `(p, c)` is the block's `(0, 0, p, c)`. -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h _ _ (by
    rw [Shape.rowMajor_val_four, Shape.rowMajor_val_two]
    show ((0 * 1 + 0) * a + p.val) * b + c.val = p.val * b + c.val
    simp)

/-- A matrix `[a, b]` laid out as the block `[1, 1, a, b]`: entry `(u, w, p, c)` is the matrix's `(p, c)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (p : Fin a) (c : Fin b) :
    shapeCast ⟨4, ![1, 1, a, b]⟩ x h (ix4 u w p c) = x (ix2 p c) :=
  shapeCast_apply x h _ _ (by
    have hu : u.val = 0 := by omega
    have hw : w.val = 0 := by omega
    rw [Shape.rowMajor_val_four, Shape.rowMajor_val_two]
    show p.val * b + c.val = ((u.val * 1 + w.val) * a + p.val) * b + c.val
    rw [hu, hw]; simp)

/-- The maximum of an `[a, b]` vector along its lanes, read at row `p`: the fold of `max`, from the accumulator's value,
    over the entries `(p, k)`. -/
theorem multiReduction_maximumf_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans (by
    have e : (src ∘ h.lift (ix1 p)) = fun k : Fin b => src (ix2 p k) :=
      funext fun k => congrArg src (funext fun ax => Fin.ext (by
        match ax with
        | ⟨0, _⟩ => rfl
        | ⟨1, _⟩ => rfl))
    rw [e]; rfl)

section RowsByRows
variable {M K N : Nat} (D : DotDims ⟨2, ![M, K]⟩ ⟨2, ![N, K]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With the right operand's ROWS its one free axis, the right operand index has the result's column as its row. -/
theorem rhsIdx_val_row (hlb : D.lhsBatch = []) (hln : D.lhsNonContracting = [0]) (hrb : D.rhsBatch = [])
    (hrn : D.rhsNonContracting = [0])
    (j : (⟨2, ![M, N]⟩ : Shape).Idx) (k : D.contr.Idx) : (D.rhsIdx j k 0).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- Rows against rows: `[M, K] × [N, K]` contracting both second axes into the zero accumulator, read at `(p, q)`:
    `∑ₖ lhs (p, k) * rhs (q, k)`. -/
theorem matmul_zero_rows_ix2 (hlc : D.lhsContracting = [1]) (hrc : D.rhsContracting = [1])
    (hlb : D.lhsBatch = []) (hln : D.lhsNonContracting = [0]) (hrb : D.rhsBatch = []) (hrn : D.rhsNonContracting = [0])
    {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 q k := funext fun a => Fin.ext (by
    match a with
    | ⟨0, _⟩ => exact rhsIdx_val_row D hlb hln hrb hrn _ _
    | ⟨1, _⟩ => exact (D.rhsIdx_val_of_single hrc _ _).trans hk)
  rw [el, er]

end RowsByRows

end Cert.LibRowOps

end
-- ==== Proof.Payloads.lean ====
/-
  The body's arithmetic, read at one entry, over the extended reals.

  Converting a float to a narrower or wider format is the identity there, and a matrix product into a zero
  accumulator is the plain sum of products over the contracted coordinate. So, entry by entry:
    * the converted token tile is the token tile;
    * the rank-space projection of a token tile `X` (1024 × 4096) by an adapter block `A` (1 × 4096 × 64) is
      `∑ d, X[p,d] · A[0,d,k]`;
    * the output tile from a token tile `X`, a weight block `W` (256 × 4096, out × in), a rank-space tile `H` (1024 × 64),
      an adapter block `B` (1 × 64 × 256) and a bias row (1 × 256) is
      `(∑ d, X[p,d] · W[q,d]) + (∑ k, H[p,k] · B[0,k,q]) + bias[0,q]`.
-/
import proofs.«108454_g45956150067888_cont_8to1_c_53_5_alg».proof.Proof.Gen.KernelIdeal.Skeleton
import proofs.«108454_g45956150067888_cont_8to1_c_53_5_alg».proof.Proof.LibBlock
import proofs.«108454_g45956150067888_cont_8to1_c_53_5_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx
open scoped BigOperators

namespace Cert.KernelIdeal.Payloads

open Cert.KernelIdeal Cert.KernelIdeal.Gen

/-- The converted token tile is the token tile. -/
theorem tokens_eq (v : Vec Ideal S1024x4096 .f32) : (k0_pay1 (F := Ideal) v : S1024x4096.Idx → EReal) = v := by
  unfold k0_pay1
  dsimp only
  rw [shapeCast_self, shapeCast_self]
  rfl

/-- The rank-space projection at `(p, k)`. -/
theorem rank_apply (xb : Vec Ideal S1024x4096 .bf16) (a3 : Vec Ideal S1x4096x64 .f32) (p : Fin 1024) (k : Fin 64) :
    k0_pay2 (F := Ideal) xb a3 (ix2 p k) = ∑ d : Fin 4096, xb (ix2 p d) * a3 (ix3 (0 : Fin 1) d k) := by
  unfold k0_pay2
  rw [shapeCast_self]
  refine (Cert.LibBlock.matmul_zero_ix2 dot_S1024x4096_S4096x64_S1024x64_1_0_0_1_n_n rfl rfl rfl rfl rfl rfl none xb _ p k).trans ?_
  refine Finset.sum_congr rfl fun d _ => congrArg (xb (ix2 p d) * ·) ?_
  exact shapeCast_1ab_ab_apply a3 shapeCasts_S1x4096x64_S4096x64 d k

/-- The output tile at `(p, q)`. -/
theorem out_apply (xb : Vec Ideal S1024x4096 .bf16) (w : Vec Ideal S256x4096 .f32) (h : Vec Ideal S1024x64 .bf16)
    (b4 : Vec Ideal S1x64x256 .f32) (bias : Vec Ideal S1x256 .f32) (p : Fin 1024) (q : Fin 256) :
    k0_pay3 (F := Ideal) xb w h b4 bias (ix2 p q)
      = (∑ d : Fin 4096, xb (ix2 p d) * w (ix2 q d)) + (∑ k : Fin 64, h (ix2 p k) * b4 (ix3 (0 : Fin 1) k q))
        + bias (ix2 (0 : Fin 1) q) := by
  unfold k0_pay3
  rw [shapeCast_self]
  refine congrArg₂ (· + ·) (congrArg₂ (· + ·) ?_ ?_) ?_
  · exact Cert.LibRowOps.matmul_zero_rows_ix2 dot_S1024x4096_S256x4096_S1024x256_1_1_0_0_n_n rfl rfl rfl rfl rfl rfl none xb _ p q
  · refine (Cert.LibBlock.matmul_zero_ix2 dot_S1024x64_S64x256_S1024x256_1_0_0_1_n_n rfl rfl rfl rfl rfl rfl none h _ p q).trans ?_
    refine Finset.sum_congr rfl fun k _ => congrArg (h (ix2 p k) * ·) ?_
    exact shapeCast_1ab_ab_apply b4 shapeCasts_S1x64x256_S64x256 k q
  · exact broadcastTo_1b_ab_apply bias broadcasts_S1x256_S1024x256 p q

end Cert.KernelIdeal.Payloads
end
-- ==== Proof.Cell.lean ====
/-
  The layer's output over the token MATRIX: the 4 × 2048 tokens laid out as 8192 rows, 1024 rows to a tile, and a table
  of 8 words giving each tile's adapter (two tiles to a sequence). Row `r`, out feature `o`, adapter `L`:

      cell = (∑ d, X[r,d] · W[o,d]) + (∑ k, (∑ d, X[r,d] · A[L,d,k]) · B[L,k,o]) + bias[0,o].
-/
import Idealize.ShloMosaic.PureOps.Ideal
import Idealize.ShloMosaic.Lib.ValueIdx

noncomputable section

namespace Cert.MultiLora

open Idealize.ShloMosaic Idealize.ShloMosaic.ValueIdx
open scoped BigOperators

/-- One entry of the output matrix, for a given adapter. -/
def cell (X : (⟨2, ![8192, 4096]⟩ : Shape).Idx → EReal) (W : (⟨2, ![4096, 4096]⟩ : Shape).Idx → EReal)
    (Bs : (⟨2, ![1, 4096]⟩ : Shape).Idx → EReal) (A : (⟨3, ![8, 4096, 64]⟩ : Shape).Idx → EReal)
    (Bm : (⟨3, ![8, 64, 4096]⟩ : Shape).Idx → EReal) (L : Fin 8) (r : Fin 8192) (o : Fin 4096) : EReal :=
  (∑ d : Fin 4096, X (ix2 r d) * W (ix2 o d))
    + (∑ k : Fin 64, (∑ d : Fin 4096, X (ix2 r d) * A (ix3 L d k)) * Bm (ix3 L k o))
    + Bs (ix2 (0 : Fin 1) o)

/-- The adapter of row `r`: word `r / 1024` of the per-tile table, reduced into the eight adapters. -/
def rowAdapter (tb : (⟨1, ![8]⟩ : Shape).Idx → BitVec 32) (r : Fin 8192) : Fin 8 :=
  ⟨(tb (ix1 (⟨(r.val / 1024) % 8, Nat.mod_lt _ (by decide)⟩ : Fin 8))).toNat % 8, Nat.mod_lt _ (by decide)⟩

/-- The whole output matrix. -/
def matrix (X : (⟨2, ![8192, 4096]⟩ : Shape).Idx → EReal) (W : (⟨2, ![4096, 4096]⟩ : Shape).Idx → EReal)
    (Bs : (⟨2, ![1, 4096]⟩ : Shape).Idx → EReal) (A : (⟨3, ![8, 4096, 64]⟩ : Shape).Idx → EReal)
    (Bm : (⟨3, ![8, 64, 4096]⟩ : Shape).Idx → EReal) (tb : (⟨1, ![8]⟩ : Shape).Idx → BitVec 32) :
    (⟨2, ![8192, 4096]⟩ : Shape).Idx → EReal :=
  fun j => cell X W Bs A Bm (rowAdapter tb (j 0)) (j 0) (j 1)

theorem matrix_ix2 (X W Bs A Bm tb) (r : Fin 8192) (o : Fin 4096) :
    matrix X W Bs A Bm tb (ix2 r o) = cell X W Bs A Bm (rowAdapter tb r) r o := rfl

end Cert.MultiLora

end
-- ==== Proof.Carried.lean ====
/-
  What the carried buffers and the output tile hold after every grid step, by induction on the step.

  After step `n` (token tile `n / 16`, out-feature tile `n % 16`):
    * the carried token buffer holds the rows of the token tile;
    * the carried rank-space buffer holds their projection by the tile's adapter, `∑ d, X[r,d] · A[L,d,k]`;
    * the output tile holds the layer's output for those rows and the step's out features.
  At the first out-feature tile all three are computed from the step's own blocks; at any other the carried buffers are
  what the previous step left — the same rows, the same adapter — and the output tile is computed from them.
-/
import proofs.«108454_g45956150067888_cont_8to1_c_53_5_alg».proof.Proof.StepValues
import proofs.«108454_g45956150067888_cont_8to1_c_53_5_alg».proof.Proof.Tiles
import proofs.«108454_g45956150067888_cont_8to1_c_53_5_alg».proof.Proof.Payloads
import proofs.«108454_g45956150067888_cont_8to1_c_53_5_alg».proof.Proof.Cell

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Carried

open Cert.KernelIdeal Cert.KernelIdeal.Gen Cert.KernelIdeal.Tiles Cert.MultiLora

variable (m : (ℓ : Loc nD τ sig) → Buf (Elt Ideal) ℓ) (hO : Ok m) (c : Dev nD)

/-- Entries of the token matrix and of the `A` slabs as the region finds them, as extended reals. -/
abbrev Xv (r : Fin 8192) (d : Fin 4096) : EReal := V m c main_v0 (ix2 r d)
abbrev Av (L : Fin 8) (d : Fin 4096) (k : Fin 64) : EReal := V m c main_arg4 (ix3 L d k)

/-- The state after step `n`. -/
structure Holds (n : ℕ) (hn : n < (cfgM m hO).N) : Prop where
  tokens : ∀ (p : Fin 1024) (d : Fin 4096),
    (outsAt0 m hO c n hn).2.2 (ix2 p d) = V m c main_v0 (ix2 (row n p) d)
  rank : ∀ (p : Fin 1024) (k : Fin 64),
    (outsAt0 m hO c n hn).2.1 (ix2 p k)
      = ∑ d : Fin 4096, Xv m c (row n p) d * Av m c (adp (tbl m) n) d k
  out : ∀ (p : Fin 1024) (q : Fin 256),
    (outsAt0 m hO c n hn).1 (ix2 p q)
      = cell (V m c main_v0) (V m c main_arg2) (V m c main_v1) (V m c main_arg4) (V m c main_arg5)
          (adp (tbl m) n) (row n p) (col n q)

/-- The output tile from a token tile and a rank-space tile that hold what they should. -/
theorem out_of (t : Fin (cfgM m hO).N) (xb : Vec Ideal S1024x4096 .bf16) (h : Vec Ideal S1024x64 .bf16)
    (hxb : ∀ (p : Fin 1024) (d : Fin 4096), xb (ix2 p d) = V m c main_v0 (ix2 (row t.val p) d))
    (hh : ∀ (p : Fin 1024) (k : Fin 64), h (ix2 p k)
      = ∑ d : Fin 4096, Xv m c (row t.val p) d * Av m c (adp (tbl m) t.val) d k)
    (p : Fin 1024) (q : Fin 256) :
    k0_pay3 (F := Ideal) xb (iblk m hO c 1 t) h (iblk m hO c 4 t) (iblk m hO c 2 t) (ix2 p q)
      = cell (V m c main_v0) (V m c main_arg2) (V m c main_v1) (V m c main_arg4) (V m c main_arg5)
          (adp (tbl m) t.val) (row t.val p) (col t.val q) := by
  refine (Payloads.out_apply xb (iblk m hO c 1 t) h (iblk m hO c 4 t) (iblk m hO c 2 t) p q).trans ?_
  unfold cell
  refine congrArg₂ (fun a b : EReal => a + b) (congrArg₂ (fun a b : EReal => a + b) ?_ ?_) ?_
  · exact Finset.sum_congr rfl fun d _ => congrArg₂ (fun a b : EReal => a * b) (hxb p d) (iblk1 m hO c t q d)
  · exact Finset.sum_congr rfl fun k _ => congrArg₂ (fun a b : EReal => a * b) (hh p k) (iblk4 m hO c t k q)
  · exact iblk2 m hO c t q

theorem holds : ∀ (n : ℕ) (hn : n < (cfgM m hO).N), Holds m hO c n hn := by
  intro n
  induction n using Nat.strong_induction_on with
  | _ n ih =>
    intro hn
    by_cases h0 : n % 16 = 0
    · have e1 : (outsAt0 m hO c n hn).1
          = k0_pay3 (k0_pay1 (iblk m hO c 0 ⟨n, hn⟩)) (iblk m hO c 1 ⟨n, hn⟩)
              (k0_pay2 (k0_pay1 (iblk m hO c 0 ⟨n, hn⟩)) (iblk m hO c 3 ⟨n, hn⟩)) (iblk m hO c 4 ⟨n, hn⟩) (iblk m hO c 2 ⟨n, hn⟩) :=
        StepValues.first_out m hO c ⟨n, hn⟩ h0
      have e2 : (outsAt0 m hO c n hn).2.1 = k0_pay2 (k0_pay1 (iblk m hO c 0 ⟨n, hn⟩)) (iblk m hO c 3 ⟨n, hn⟩) :=
        StepValues.first_rank m hO c ⟨n, hn⟩ h0
      have e3 : (outsAt0 m hO c n hn).2.2 = k0_pay1 (iblk m hO c 0 ⟨n, hn⟩) :=
        StepValues.first_tokens m hO c ⟨n, hn⟩ h0
      have htok : ∀ (p : Fin 1024) (d : Fin 4096),
          k0_pay1 (F := Ideal) (iblk m hO c 0 ⟨n, hn⟩) (ix2 p d) = V m c main_v0 (ix2 (row n p) d) := fun p d =>
        (congrFun (Payloads.tokens_eq (iblk m hO c 0 ⟨n, hn⟩)) (ix2 p d)).trans (iblk0 m hO c ⟨n, hn⟩ p d)
      have hrank : ∀ (p : Fin 1024) (k : Fin 64),
          k0_pay2 (F := Ideal) (k0_pay1 (iblk m hO c 0 ⟨n, hn⟩)) (iblk m hO c 3 ⟨n, hn⟩) (ix2 p k)
            = ∑ d : Fin 4096, Xv m c (row n p) d * Av m c (adp (tbl m) n) d k := fun p k =>
        (Payloads.rank_apply (k0_pay1 (iblk m hO c 0 ⟨n, hn⟩)) (iblk m hO c 3 ⟨n, hn⟩) p k).trans
          (Finset.sum_congr rfl fun d _ => congrArg₂ (fun a b : EReal => a * b) (htok p d) (iblk3 m hO c ⟨n, hn⟩ d k))
      refine ⟨fun p d => ?_, fun p k => ?_, fun p q => ?_⟩
      · rw [e3]; exact htok p d
      · rw [e2]; exact hrank p k
      · rw [e1]; exact out_of m hO c ⟨n, hn⟩ _ _ htok hrank p q
    · have hn' : n - 1 < (cfgM m hO).N := by omega
      have IH := ih (n - 1) (by omega) hn'
      have e1 : (outsAt0 m hO c n hn).1
          = k0_pay3 (outsAt0 m hO c (n - 1) hn').2.2 (iblk m hO c 1 ⟨n, hn⟩) (outsAt0 m hO c (n - 1) hn').2.1
              (iblk m hO c 4 ⟨n, hn⟩) (iblk m hO c 2 ⟨n, hn⟩) :=
        StepValues.later_out m hO c ⟨n, hn⟩ h0
      have e2 : (outsAt0 m hO c n hn).2.1 = (outsAt0 m hO c (n - 1) hn').2.1 := StepValues.later_rank m hO c ⟨n, hn⟩ h0
      have e3 : (outsAt0 m hO c n hn).2.2 = (outsAt0 m hO c (n - 1) hn').2.2 := StepValues.later_tokens m hO c ⟨n, hn⟩ h0
      have htok : ∀ (p : Fin 1024) (d : Fin 4096),
          (outsAt0 m hO c (n - 1) hn').2.2 (ix2 p d) = V m c main_v0 (ix2 (row n p) d) := fun p d => by
        rw [IH.tokens p d, row_pred n h0]
      have hrank : ∀ (p : Fin 1024) (k : Fin 64),
          (outsAt0 m hO c (n - 1) hn').2.1 (ix2 p k)
            = ∑ d : Fin 4096, Xv m c (row n p) d * Av m c (adp (tbl m) n) d k := fun p k => by
        rw [IH.rank p k, row_pred n h0, adp_pred (tbl m) n h0]
      refine ⟨fun p d => ?_, fun p k => ?_, fun p q => ?_⟩
      · rw [e3]; exact htok p d
      · rw [e2]; exact hrank p k
      · rw [e1]; exact out_of m hO c ⟨n, hn⟩ _ _ htok hrank p q

end Cert.KernelIdeal.Carried
end
-- ==== Proof.Cover.lean ====
/-
  From the output tiles to the whole output array.

  The grid has 8 token tiles of 1024 rows by 16 out-feature tiles of 256 columns; step `t` writes back the tile at rows
  `1024·(t/16) …`, columns `256·(t%16) …` of the 8192 × 4096 output, at every step. The tiles partition the array: entry
  `(r, o)` lies in the tile of step `16·(r/1024) + o/256`. So if what each step writes back is the restriction to its tile
  of one function `G` of the whole array's indices, the array ends holding `G`. Every structural fact is proved for an
  arbitrary table of adapter ids and instantiated last.
-/
import proofs.«108454_g45956150067888_cont_8to1_c_53_5_alg».proof.Proof.Gen.KernelIdeal.Frame
import proofs.«108454_g45956150067888_cont_8to1_c_53_5_alg».proof.Proof.Blocks
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Cover

open Cert.KernelIdeal Cert.KernelIdeal.Gen Cert.KernelIdeal.Blocks

variable {F : FTy → Type} [FloatOps F]

/-! ## One tile, at any table -/

/-- The output window is never cut at the array's end: what a step writes back is all of what its body left. -/
theorem cut_apply (a : (pcfg0 (F := F)).Adm) (t : Fin (cfg0 a).N) (X : Vec F S1024x256 .f32) (p : Fin 1024) (q : Fin 256) :
    ((cfg0 a).win 5).cut ((cfg0 a).grid.coords t) X (ix2 p q) = X (ix2 p q) := rfl

/-- An array read through a step's tile, at an entry of the tile, is the array at that entry's place. -/
theorem read_apply (a : (pcfg0 (F := F)).Adm) (t : Fin (cfg0 a).N) (G : S8192x4096.Idx → Elt F .f32) (p : Fin 1024) (q : Fin 256) :
    (((cfg0 a).win 5).blk t).view.read (Elt F) G (ix2 p q) = G ((((cfg0 a).win 5).blk t).view.emb (ix2 p q)) := rfl

/-- Entry `(r, o)` of the output lies in step `t`'s tile exactly when `r` is among the tile's 1024 rows and `o` among
    its 256 columns. -/
theorem mem_blk (a : (pcfg0 (F := F)).Adm) (t : Fin (cfg0 a).N) (r : Fin 8192) (o : Fin 4096) :
    (ix2 r o : S8192x4096.Idx) ∈ (((cfg0 a).win 5).blk t).view.set
      ↔ (1024 * (t.val / 16) ≤ r.val ∧ r.val < 1024 * (t.val / 16) + 1024)
        ∧ (256 * (t.val % 16) ≤ o.val ∧ o.val < 256 * (t.val % 16) + 256) := by
  obtain ⟨e0, e1, e2, e5⟩ := tr_plain t
  have hs : (((cfg0 a).win 5).blk t).view.set = (((cfg0 a).win 5).rect t).set := View.set_slice_whole main_v4 _
  have h1 : ((ix2 r o : S8192x4096.Idx) ∈ (((cfg0 a).win 5).blk t).view.set)
      = ((ix2 r o : S8192x4096.Idx) ∈ (((cfg0 a).win 5).rect t).set) :=
    congrArg (fun S : Finset S8192x4096.Idx => (ix2 r o : S8192x4096.Idx) ∈ S) hs
  refine (Iff.of_eq h1).trans (Rect.mem_set_unit.trans ?_)
  constructor
  · intro h
    have h0 : cc0_transform_5 (grid0.coords t) (0 : Fin 2) * 1024 ≤ r.val
        ∧ r.val < cc0_transform_5 (grid0.coords t) (0 : Fin 2) * 1024 + 1024 := h (0 : Fin 2)
    have h1 : cc0_transform_5 (grid0.coords t) (1 : Fin 2) * 256 ≤ o.val
        ∧ o.val < cc0_transform_5 (grid0.coords t) (1 : Fin 2) * 256 + 256 := h (1 : Fin 2)
    rw [e5] at h0 h1
    have h0' : t.val / 16 * 1024 ≤ r.val ∧ r.val < t.val / 16 * 1024 + 1024 := h0
    have h1' : t.val % 16 * 256 ≤ o.val ∧ o.val < t.val % 16 * 256 + 256 := h1
    omega
  · rintro ⟨h0, h1⟩ ax
    match ax with
    | ⟨0, _⟩ => show cc0_transform_5 (grid0.coords t) (0 : Fin 2) * 1024 ≤ r.val
                  ∧ r.val < cc0_transform_5 (grid0.coords t) (0 : Fin 2) * 1024 + 1024
                rw [e5]; show t.val / 16 * 1024 ≤ r.val ∧ r.val < t.val / 16 * 1024 + 1024; omega
    | ⟨1, _⟩ => show cc0_transform_5 (grid0.coords t) (1 : Fin 2) * 256 ≤ o.val
                  ∧ o.val < cc0_transform_5 (grid0.coords t) (1 : Fin 2) * 256 + 256
                rw [e5]; show t.val % 16 * 256 ≤ o.val ∧ o.val < t.val % 16 * 256 + 256; omega

/-- The tiles cover the array: entry `(r, o)` lies in the tile of step `16·(r/1024) + o/256`, which writes back. -/
theorem covered (a : (pcfg0 (F := F)).Adm) (r : Fin 8192) (o : Fin 4096) :
    ∃ t : Fin (cfg0 a).N, ((cfg0 a).win 5).flush t = true ∧ (ix2 r o : S8192x4096.Idx) ∈ (((cfg0 a).win 5).blk t).view.set := by
  have hr := r.isLt
  have ho := o.isLt
  refine ⟨⟨16 * (r.val / 1024) + o.val / 256, lt_of_lt_of_eq (by omega : 16 * (r.val / 1024) + o.val / 256 < 128) N_0.symm⟩, flush0_5 a _, ?_⟩
  rw [mem_blk]
  show (1024 * ((16 * (r.val / 1024) + o.val / 256) / 16) ≤ r.val ∧ r.val < 1024 * ((16 * (r.val / 1024) + o.val / 256) / 16) + 1024)
    ∧ (256 * ((16 * (r.val / 1024) + o.val / 256) % 16) ≤ o.val ∧ o.val < 256 * ((16 * (r.val / 1024) + o.val / 256) % 16) + 256)
  omega

/-! ## The array after the run -/

variable (m : (ℓ : Loc nD τ sig) → Buf (Elt F) ℓ)

/-- What step `t` writes back is its tile of `G`, when the body's tile agrees with `G` entry by entry. -/
theorem flushed_eq (hO : Gen.Ok m) (c : Dev nD) (G : S8192x4096.Idx → Elt F .f32)
    (houts : ∀ (t : Fin (Gen.cfgM m hO).N) (p : Fin 1024) (q : Fin 256),
       (Gen.outsAt0 m hO c t.val t.isLt).1 (ix2 p q) = G ((((Gen.cfgM m hO).win 5).blk t).view.emb (ix2 p q)))
    (t : Fin (Gen.cfgM m hO).N) :
    (Gen.dats m hO 0 c).flushed 5 t = (((Gen.cfgM m hO).win 5).blk t).view.read (Elt F) G := by
  show ((Gen.cfgM m hO).win 5).cut ((Gen.cfgM m hO).grid.coords t) ((Gen.dats m hO 0 c).after 5 t) = _
  rw [after0_5]
  have key : ∀ y : S1024x256.Idx, ((Gen.cfgM m hO).win 5).cut ((Gen.cfgM m hO).grid.coords t) (Gen.outsAt0 m hO c t.val t.isLt).1 y
      = (((Gen.cfgM m hO).win 5).blk t).view.read (Elt F) G y := fun y => by
    obtain ⟨p, q, rfl⟩ : ∃ (p : Fin 1024) (q : Fin 256), y = ix2 p q := ⟨y 0, y 1, eq_ix2 y⟩
    exact (cut_apply (Gen.adm m hO) t _ p q).trans ((houts t p q).trans (read_apply (Gen.adm m hO) t G p q).symm)
  exact funext key

/-- THE OUTPUT ARRAY after the run: `G`, when each step's tile agrees with `G` entry by entry. -/
theorem final (hO : Gen.Ok m) (c : Dev nD) (G : S8192x4096.Idx → Elt F .f32)
    (houts : ∀ (t : Fin (Gen.cfgM m hO).N) (p : Fin 1024) (q : Fin 256),
       (Gen.outsAt0 m hO c t.val t.isLt).1 (ix2 p q) = G ((((Gen.cfgM m hO).win 5).blk t).view.emb (ix2 p q))) :
    (Gen.dats m hO 0 c).arrAt 5 (Gen.cfgM m hO).N = G :=
  (Gen.dats m hO 0 c).arrAt_eq_of_cover 5 G (fun t _ => flushed_eq m hO c G houts t) fun i => by
    have key : ∀ i' : S8192x4096.Idx, ∃ t : Fin (Gen.cfgM m hO).N, ((Gen.cfgM m hO).win 5).flush t = true
        ∧ i' ∈ (((Gen.cfgM m hO).win 5).blk t).view.set := fun i' => by
      obtain ⟨r, o, rfl⟩ : ∃ (r : Fin 8192) (o : Fin 4096), i' = ix2 r o := ⟨i' 0, i' 1, eq_ix2 i'⟩
      exact covered (Gen.adm m hO) r o
    exact key i

end Cert.KernelIdeal.Cover

end
-- ==== Proof.RunRead.lean ====
/-
  The idealized kernel's run, read at the result and at the two re-laid arguments.

  Around the pipeline the program only re-lays arrays: before it, the tokens `x : [4, 2048, 4096]` are flattened to
  `[8192, 4096]` (row `2048·b + s` is token `s` of sequence `b`) and the bias `[4096]` becomes one row `[1, 4096]`; after
  it, the pipeline's `[8192, 4096]` output is folded back to `[4, 2048, 4096]`. A reshape keeps row-major positions, so
  each of these is a change of coordinates and nothing else.

  `run_of_final` turns the generated frame run into a statement about the result: whatever function `G` the
  pipeline's output array is shown to hold after the last grid point, the program ends with its result at `G` folded
  back, and with its six arguments unchanged. `out_read`, `V_tokens` and `V_bias` read the three reshapes entry by
  entry. Everything is stated at any float instance.
-/
import proofs.«108454_g45956150067888_cont_8to1_c_53_5_alg».proof.Proof.Gen.KernelIdeal.Frame
import Idealize.ShloMosaic.Lib.Pipeline.Value
import Idealize.ShloMosaic.Lib.ValueIdx

set_option maxRecDepth 16384

noncomputable section

namespace Cert.KernelIdeal.RunRead

open Cert.KernelIdeal Cert.KernelIdeal.Gen
open Idealize.ShloMosaic Idealize.ShloMosaic.TcCoe Idealize.SL.Sem Idealize.ShloMosaic.ValueIdx

variable {F : FTy → Type} [FloatOps F]

/-! ## The reshapes, entry by entry -/

/-- The result folded back: entry `(b, s, o)` of `[4, 2048, 4096]` is entry `(2048·b + s, o)` of `[8192, 4096]`. -/
theorem out_read {α : Type} (h : S8192x4096.ShapeCasts S4x2048x4096) (G : S8192x4096.Idx → α) (b : Fin 4) (s : Fin 2048)
    (o : Fin 4096) :
    shapeCast S4x2048x4096 G h (ix3 b s o) = G (ix2 (⟨2048 * b.val + s.val, by omega⟩ : Fin 8192) o) := by
  refine shapeCast_apply _ _ (ix3 b s o) (ix2 (⟨2048 * b.val + s.val, by omega⟩ : Fin 8192) o) ?_
  rw [Shape.rowMajor_val_two, Shape.rowMajor_val_three]
  show (2048 * b.val + s.val) * 4096 + o.val = (b.val * 2048 + s.val) * 4096 + o.val
  omega

variable (m : (ℓ : Loc nD τ sig) → Buf (Elt F) ℓ) (ρ : Dev nD → PrngReg)

/-- The flattened tokens as the pipeline finds them: row `r` is token `r % 2048` of sequence `r / 2048`. -/
theorem V_tokens (c : Dev nD) (r : Fin 8192) (d : Fin 4096) :
    V m c main_v0 (ix2 r d) = m ((c.tc : Thread nD τ).loc main_arg0)
      (ix3 (⟨r.val / 2048, by omega⟩ : Fin 4) (⟨r.val % 2048, Nat.mod_lt _ (by decide)⟩ : Fin 2048) d) := by
  show StableHlo.after hostOps0 (fun b => m (c, b)) (Proc.devRef .tc main_v0) (ix2 r d) = _
  after_results
  show shapeCast S8192x4096 (m (c, Proc.devRef .tc main_arg0)) shapeCasts_S4x2048x4096_S8192x4096 (ix2 r d) = _
  refine shapeCast_apply _ _ (ix2 r d)
    (ix3 (⟨r.val / 2048, by omega⟩ : Fin 4) (⟨r.val % 2048, Nat.mod_lt _ (by decide)⟩ : Fin 2048) d) ?_
  rw [Shape.rowMajor_val_two, Shape.rowMajor_val_three]
  show ((r.val / 2048) * 2048 + r.val % 2048) * 4096 + d.val = r.val * 4096 + d.val
  have := Nat.div_add_mod r.val 2048
  omega

/-- The bias as the pipeline finds it: the one row of `[1, 4096]` is the bias. -/
theorem V_bias (c : Dev nD) (o : Fin 4096) :
    V m c main_v1 (ix2 (0 : Fin 1) o) = m ((c.tc : Thread nD τ).loc main_arg3) (ix1 o) := by
  show StableHlo.after hostOps0 (fun b => m (c, b)) (Proc.devRef .tc main_v1) (ix2 (0 : Fin 1) o) = _
  after_results
  show shapeCast S1x4096 (m (c, Proc.devRef .tc main_arg3)) shapeCasts_S4096_S1x4096 (ix2 (0 : Fin 1) o) = _
  refine shapeCast_apply _ _ (ix2 (0 : Fin 1) o) (ix1 o) ?_
  rw [Shape.rowMajor_val_two, Shape.rowMajor_val_one]
  show o.val = 0 * 4096 + o.val
  omega

/-! ## The run, read at the result -/

/-- After the pipeline the one remaining operation folds the pipeline's output array back: if that array ends at
    `G c`, the program's result buffer ends at `G c` reshaped. -/
theorem tail_v5 (hO : Ok m) (G : (c : Dev nD) → Vec F S8192x4096 .f32)
    (final : ∀ c, (dats m hO 0 c).arrAt 5 (cfgM m hO).N = G c) (c : Dev nD) :
    Pipeline.afterTail pcfgs (fun _ => adm m hO) (dats m hO) 0 (V0 m) [hostOps1] c main_v5
      = shapeCast S4x2048x4096 (G c) shapeCasts_S8192x4096_S4x2048x4096 := by
  unfold Pipeline.afterTail
  show StableHlo.after hostOps1 _ (Proc.devRef .tc main_v5) = _
  after_results
  exact congrArg (fun x => shapeCast S4x2048x4096 x shapeCasts_S8192x4096_S4x2048x4096)
    ((Pipeline.withArrays_arr spec0 (launch0 (F := F)).win.arr_inj c _ _ 5).trans (final c))

/-- THE RUN: under the frame's side condition on the prefetched table, every weakly fair execution terminates with the result at `G` folded back
    to `[4, 2048, 4096]` — `G c` being what the pipeline's output array holds after the last grid point — and the six
    arguments as launched. -/
theorem run_of_final (hO : Ok m) (G : (c : Dev nD) → Vec F S8192x4096 .f32)
    (final : ∀ c, (dats m hO 0 c).arrAt 5 (cfgM m hO).N = G c) :
    θ_run defs (onTc (τ := τ) (main (F := F))) ⟨m, fun _ => 0, ρ⟩ (fun r => ∀ c : Dev nD,
      r.2.mem ((c.tc : Thread nD τ).loc main_v5) = shapeCast S4x2048x4096 (G c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v5 (by decide : main_v5 ∈ Pipeline.restRefs sig spec0)).trans (tail_v5 m hO G final c),
      ((h c).2 main_arg0 (by decide : main_arg0 ∈ Pipeline.restRefs sig spec0)).trans (W_main_arg0 m hO (dats m hO) c),
      ((h c).2 main_arg1 (by decide : main_arg1 ∈ Pipeline.restRefs sig spec0)).trans (W_main_arg1 m hO (dats m hO) c),
      ((h c).1 1).trans (((dats m hO 0 c).arrAt_in 1 rfl _).trans ((A_eq m hO c 1).trans (V_main_arg2 m c))),
      ((h c).2 main_arg3 (by decide : main_arg3 ∈ Pipeline.restRefs sig spec0)).trans (W_main_arg3 m hO (dats m hO) c),
      ((h c).1 3).trans (((dats m hO 0 c).arrAt_in 3 rfl _).trans ((A_eq m hO c 3).trans (V_main_arg4 m c))),
      ((h c).1 4).trans (((dats m hO 0 c).arrAt_in 4 rfl _).trans ((A_eq m hO c 4).trans (V_main_arg5 m c)))⟩)
    (run_main m ρ hO)

end Cert.KernelIdeal.RunRead

end
-- ==== Proof.Final.lean ====
/-
  The matrix the pipeline computes, folded back, is the layer.

  The pipeline works on the tokens as a matrix of 8192 rows — row `2048·b + s` is token `s` of sequence `b` — in tiles
  of 1024 rows, and picks each tile's adapter from a table of eight words, word `j` being the id of sequence `j / 2`.
  Row `2048·b + s` lies in tile `2b + s / 1024`, whose word is therefore the id of sequence `b`: the adapter the matrix
  uses on that row is the adapter the layer uses on sequence `b` (both reduce the id word modulo 8, so this needs no
  range hypothesis). The remaining differences are layouts: the token matrix is the flattened token array, the bias
  row is the bias, and the result matrix folded back reads entry `(b, s, o)` at row `2048·b + s`. With these the two
  sums of products agree term by term.
-/
import proofs.«108454_g45956150067888_cont_8to1_c_53_5_alg».proof.Proof.Spec
import proofs.«108454_g45956150067888_cont_8to1_c_53_5_alg».proof.Proof.Cell
import proofs.«108454_g45956150067888_cont_8to1_c_53_5_alg».proof.Proof.OkKernelIdeal
import proofs.«108454_g45956150067888_cont_8to1_c_53_5_alg».proof.Proof.RunRead

set_option maxRecDepth 16384

noncomputable section

namespace Cert.KernelIdeal.Final

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-- Row `2048·b + s` of the token matrix is token `s` of sequence `b`. -/
theorem tokens_row (c : Dev nD) (b : Fin 4) (s : Fin 2048) (d : Fin 4096) :
    V m c main_v0 (ix2 (⟨2048 * b.val + s.val, by omega⟩ : Fin 8192) d)
      = m ((c.tc : Thread nD τ).loc main_arg0) (ix3 b s d) := by
  rw [RunRead.V_tokens]
  refine congrArg _ ?_
  funext a
  match a with
  | ⟨0, _⟩ => exact Fin.ext (by show (2048 * b.val + s.val) / 2048 = b.val; omega)
  | ⟨1, _⟩ => exact Fin.ext (by show (2048 * b.val + s.val) % 2048 = s.val; omega)
  | ⟨2, _⟩ => rfl

/-- The adapter the table gives row `2048·b + s` is the adapter the ids give sequence `b`: the row's tile is
    `2b + s / 1024`, and the table's word there is the id of sequence `(2b + s / 1024) / 2 = b`. -/
theorem rowAdapter_row (b : Fin 4) (s : Fin 2048) :
    Cert.MultiLora.rowAdapter (tbl m 0) (⟨2048 * b.val + s.val, by omega⟩ : Fin 8192)
      = Cert.MultiLora.adapter (m (((0 : Dev nD) : Thread nD τ).loc main_arg1)) b := by
  apply Fin.ext
  show (tbl m 0 (ix1 (⟨((2048 * b.val + s.val) / 1024) % 8, _⟩ : Fin 8))).toNat % 8
    = (m (((0 : Dev nD) : Thread nD τ).loc main_arg1) (ix1 b)).toNat % 8
  rw [OkOfPre.tbl_eq]
  have e : (⟨((2048 * b.val + s.val) / 1024) % 8 / 2, by omega⟩ : Fin 4) = b := Fin.ext (by
    show ((2048 * b.val + s.val) / 1024) % 8 / 2 = b.val
    omega)
  rw [e]

/-- One entry, for arrays related as the layouts relate them: if the token matrix `X` is the token array `x` flattened,
    the bias row `Bs` is the bias, and the table's adapter on the rows of sequence `b` is the ids' adapter of `b`, then
    the matrix folded back at `(b, s, o)` is the layer's output there. -/
theorem entry_of_layouts (h : S8192x4096.ShapeCasts S4x2048x4096)
    (X : (⟨2, ![8192, 4096]⟩ : Shape).Idx → EReal) (W W' : (⟨2, ![4096, 4096]⟩ : Shape).Idx → EReal)
    (Bs : (⟨2, ![1, 4096]⟩ : Shape).Idx → EReal) (A A' : (⟨3, ![8, 4096, 64]⟩ : Shape).Idx → EReal)
    (Bm Bm' : (⟨3, ![8, 64, 4096]⟩ : Shape).Idx → EReal) (tb : (⟨1, ![8]⟩ : Shape).Idx → BitVec 32)
    (x : (⟨3, ![4, 2048, 4096]⟩ : Shape).Idx → EReal) (ids : (⟨1, ![4]⟩ : Shape).Idx → BitVec 32)
    (bias : (⟨1, ![4096]⟩ : Shape).Idx → EReal)
    (hX : ∀ (b : Fin 4) (s : Fin 2048) (d : Fin 4096), X (ix2 (⟨2048 * b.val + s.val, by omega⟩ : Fin 8192) d) = x (ix3 b s d))
    (hBs : ∀ o : Fin 4096, Bs (ix2 (0 : Fin 1) o) = bias (ix1 o))
    (hL : ∀ (b : Fin 4) (s : Fin 2048),
      Cert.MultiLora.rowAdapter tb (⟨2048 * b.val + s.val, by omega⟩ : Fin 8192) = Cert.MultiLora.adapter ids b)
    (hW : W = W') (hA : A = A') (hB : Bm = Bm') (b : Fin 4) (s : Fin 2048) (o : Fin 4096) :
    shapeCast S4x2048x4096 (Cert.MultiLora.matrix X W Bs A Bm tb) h (ix3 b s o)
      = Cert.MultiLora.outAt x ids W' bias A' Bm' b s o := by
  subst hW hA hB
  rw [RunRead.out_read, Cert.MultiLora.matrix_ix2, hL]
  unfold Cert.MultiLora.cell Cert.MultiLora.outAt Cert.MultiLora.lowRank
  simp only [hX, hBs]

/-- One entry: the folded-back matrix over the arrays the pipeline finds, at `(b, s, o)`, is the layer's output. -/
theorem entry (c : Dev nD) (b : Fin 4) (s : Fin 2048) (o : Fin 4096) :
    shapeCast S4x2048x4096 (Cert.MultiLora.matrix (V m c main_v0) (V m c main_arg2) (V m c main_v1) (V m c main_arg4)
        (V m c main_arg5) (tbl m 0)) shapeCasts_S8192x4096_S4x2048x4096 (ix3 b s o)
      = Cert.MultiLora.outAt (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) b s o := by
  obtain rfl : c = 0 := Subsingleton.elim _ _
  exact entry_of_layouts _ _ _ _ _ _ _ _ _ _ _ _ _ (tokens_row m 0) (RunRead.V_bias m 0) (rowAdapter_row m)
    (V_main_arg2 m 0) (V_main_arg4 m 0) (V_main_arg5 m 0) b s o

/-- THE VALUE: the matrix over the arrays the pipeline finds, folded back to `[4, 2048, 4096]`, is the layer applied to
    the six arguments as launched. -/
theorem value (c : Dev nD) :
    shapeCast S4x2048x4096 (Cert.MultiLora.matrix (V m c main_v0) (V m c main_arg2) (V m c main_v1) (V m c main_arg4)
        (V m c main_arg5) (tbl m 0)) shapeCasts_S8192x4096_S4x2048x4096
      = Cert.MultiLora.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  funext j
  obtain ⟨b, s, o, rfl⟩ : ∃ (b : Fin 4) (s : Fin 2048) (o : Fin 4096), j = ix3 b s o := ⟨j 0, j 1, j 2, eq_ix3 j⟩
  exact entry m c b s o

end Cert.KernelIdeal.Final

end
-- ==== Proof.KValue.lean ====
/-
  The idealized kernel's result array is the layer's output.

  Every grid step leaves in its output tile the layer's output for the tile's rows and columns (the step invariant);
  the tiles cover the output matrix, so the matrix after the last step is the layer's output over the token matrix; and
  the reshape after the region reads that matrix back as the [4, 2048, 4096] array of the specification.
-/
import proofs.«108454_g45956150067888_cont_8to1_c_53_5_alg».proof.Proof.Carried
import proofs.«108454_g45956150067888_cont_8to1_c_53_5_alg».proof.Proof.Cover
import proofs.«108454_g45956150067888_cont_8to1_c_53_5_alg».proof.Proof.RunRead
import proofs.«108454_g45956150067888_cont_8to1_c_53_5_alg».proof.Proof.Final

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Tiles Cert.MultiLora

/-- The adapter of a row of step `n`'s token tile is the step's adapter: both are word `n / 16` of the table. -/
theorem rowAdapter_row (tb : (⟨1, ![8]⟩ : Shape).Idx → BitVec 32) (n : ℕ) (hn : n < 128) (p : Fin 1024) :
    (rowAdapter tb (row n p)).val = (tb (ix1 (⟨(n / 16) % 8, Nat.mod_lt _ (by decide)⟩ : Fin 8))).toNat % 8 := by
  have hr : (row n p).val / 1024 = n / 16 := by
    show ((1024 * (n / 16) + p.val) % 8192) / 1024 = n / 16
    have := p.isLt; omega
  have hf : (⟨((row n p).val / 1024) % 8, Nat.mod_lt _ (by decide)⟩ : Fin 8) = ⟨(n / 16) % 8, Nat.mod_lt _ (by decide)⟩ :=
    Fin.ext (by show ((row n p).val / 1024) % 8 = (n / 16) % 8; rw [hr])
  show (tb (ix1 (⟨((row n p).val / 1024) % 8, _⟩ : Fin 8))).toNat % 8 = _
  rw [hf]

variable (m : (ℓ : Loc nD τ sig) → Buf (Elt Ideal) ℓ) (ρ : Dev nD → PrngReg)

/-- The output matrix: the layer's output over the arrays as the region finds them. -/
abbrev result (c : Dev nD) : S8192x4096.Idx → EReal :=
  matrix (V m c main_v0) (V m c main_arg2) (V m c main_v1) (V m c main_arg4) (V m c main_arg5) (tbl m 0)

/-- Each step's output tile is its block of the output matrix. -/
theorem houts (hO : Ok m) (c : Dev nD) (t : Fin (cfgM m hO).N) (p : Fin 1024) (q : Fin 256) :
    (outsAt0 m hO c t.val t.isLt).1 (ix2 p q) = result m c ((((cfgM m hO).win 5).blk t).view.emb (ix2 p q)) := by
  have hN := Blocks.lt_N (adm m hO) t
  have e : ((((cfgM m hO).win 5).blk t).view.emb (ix2 p q) : S8192x4096.Idx) = ix2 (row t.val p) (col t.val q) := by
    refine (Blocks.emb5 (adm m hO) t p q).trans ?_
    rw [row_eq t.val hN p, col_eq t.val q]
  have ha : rowAdapter (tbl m 0) (row t.val p) = adp (tbl m) t.val := Fin.ext (rowAdapter_row (tbl m 0) t.val hN p)
  refine ((Carried.holds m hO c t.val t.isLt).out p q).trans ?_
  refine Eq.trans ?_ (congrArg (result m c) e).symm
  show _ = cell (V m c main_v0) (V m c main_arg2) (V m c main_v1) (V m c main_arg4) (V m c main_arg5)
    (rowAdapter (tbl m 0) (row t.val p)) (row t.val p) (col t.val q)
  exact congrArg (fun L => cell (V m c main_v0) (V m c main_arg2) (V m c main_v1) (V m c main_arg4) (V m c main_arg5)
    L (row t.val p) (col t.val q)) ha.symm

/-- After the last step the output matrix is the layer's output over the token matrix. -/
theorem final (hO : Ok m) (c : Dev nD) : (dats m hO 0 c).arrAt 5 (cfgM m hO).N = result m c :=
  Cover.final m hO c (result m c) (houts m hO c)

/-- The run, read: the result array at the specification of the argument arrays, the arguments unchanged. -/
theorem run (hO : Ok m) : θ_run defs (onTc (τ := τ) (main (F := Ideal))) ⟨m, fun _ => 0, ρ⟩ (fun r => ∀ c : Dev nD,
      r.2.mem ((c.tc : Thread nD τ).loc main_v5)
        = Cert.MultiLora.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (Final.value m c), (h c).2⟩)
    (RunRead.run_of_final (F := Ideal) m ρ hO (fun c => result m c) (final m hO))

end Cert.KernelIdeal.KValue
end
-- ==== Proof.RefTerm.lean ====
/-
  What the reference program computes, as one term of its six argument arrays.

  The id words are wrapped (a negative word has the adapter count 8 added) and laid out as a column of start indices;
  each sequence's slab of an adapter table is gathered at that column, and kept where the wrapped id lies in `[0, 7]`
  (elsewhere a not-a-number constant stands in its place); the result is the base product plus the bias, plus the tokens
  taken into the rank space of the selected `A` slab and out of it through the selected `B` slab.
-/
import proofs.«108454_g45956150067888_cont_8to1_c_53_5_alg».proof.Proof.Gen.ReferenceIdeal

noncomputable section

namespace Cert.ReferenceIdeal.RefTerm

open Cert.ReferenceIdeal Cert.ReferenceIdeal.Gen Idealize.ShloMosaic

variable {F : FTy → Type} [FloatOps F]

/-- The id words as a column of start indices: a negative word wrapped by adding the adapter count 8, then laid out
    as a `4 × 1` column. -/
def idCol (ids : (⟨S4, .i32⟩ : BufTy).Contents (Elt F)) : (⟨S4x1, .i32⟩ : BufTy).Contents (Elt F) :=
  broadcastInDim S4x1 ![0] bcast_S4_S4x1_0
    (select (cmpi .slt ids (broadcastInDim S4 ![] bcast_S_S4 (constantI S_ 32 0#32)))
      (addi ids (broadcastInDim S4 ![] bcast_S_S4 (constantI S_ 32 8#32))) ids)

/-- Per sequence, whether the wrapped id lies in `[0, 7]`: the conjunction of the two signed comparisons, reduced
    by `and` over the column's one entry. -/
def idOk (ids : (⟨S4, .i32⟩ : BufTy).Contents (Elt F)) : (⟨S4, .i1⟩ : BufTy).Contents (Elt F) :=
  Host.reduce IntOp.andi
    (andi (cmpi .sge (idCol (F := F) ids) (broadcastInDim S4x1 ![] bcast_S_S4x1 (constantI S_ 32 0#32)))
      (cmpi .sle (idCol (F := F) ids) (broadcastInDim S4x1 ![0, 1] bcast_S1x1_S4x1_0_1
        (broadcastInDim S1x1 ![1] bcast_S1_S1x1_1 (constantI S1 32 7#32)))))
    (constantI S_ 1 1#1) reducesTo_S4x1_S4_d1 h_S_

/-- Each sequence's slab of `A`: the gathered slab where the id is in range, a not-a-number constant elsewhere. -/
def takeA (A : (⟨S8x4096x64, .f32⟩ : BufTy).Contents (Elt F)) (ids : (⟨S4, .i32⟩ : BufTy).Contents (Elt F)) : (⟨S4x4096x64, .f32⟩ : BufTy).Contents (Elt F) :=
  select (broadcastInDim S4x4096x64 ![0] bcast_S4_S4x4096x64_0 (idOk (F := F) ids))
    (Host.gather gather_S8x4096x64_S4x1_S4x4096x64_12_0_n_n_0_1_1409664 A (idCol (F := F) ids))
    (broadcastInDim S4x4096x64 ![] bcast_S_S4x4096x64 (constant S_ .f32 0x7FC00000#32))

/-- Each sequence's slab of `B`, likewise. -/
def takeB (B : (⟨S8x64x4096, .f32⟩ : BufTy).Contents (Elt F)) (ids : (⟨S4, .i32⟩ : BufTy).Contents (Elt F)) : (⟨S4x64x4096, .f32⟩ : BufTy).Contents (Elt F) :=
  select (broadcastInDim S4x64x4096 ![0] bcast_S4_S4x64x4096_0 (idOk (F := F) ids))
    (Host.gather gather_S8x64x4096_S4x1_S4x64x4096_12_0_n_n_0_1_1644096 B (idCol (F := F) ids))
    (broadcastInDim S4x64x4096 ![] bcast_S_S4x64x4096 (constant S_ .f32 0x7FC00000#32))

/-- What the program computes from its six arguments: `(x · Wᵀ + bias) + (x · A[l]) · B[l]`, the slabs selected per
    sequence. -/
def refOut (x : (⟨S4x2048x4096, .f32⟩ : BufTy).Contents (Elt F)) (ids : (⟨S4, .i32⟩ : BufTy).Contents (Elt F)) (W : (⟨S4096x4096, .f32⟩ : BufTy).Contents (Elt F))
    (bias : (⟨S4096, .f32⟩ : BufTy).Contents (Elt F)) (A : (⟨S8x4096x64, .f32⟩ : BufTy).Contents (Elt F)) (B : (⟨S8x64x4096, .f32⟩ : BufTy).Contents (Elt F)) :
    (⟨S4x2048x4096, .f32⟩ : BufTy).Contents (Elt F) :=
  addf
    (addf (Host.dotGeneral dot_S4x2048x4096_S4096x4096_S4x2048x4096_2_1_01_0_n_n none x W)
      (broadcastInDim S4x2048x4096 ![0, 1, 2] bcast_S1x1x4096_S4x2048x4096_0_1_2
        (broadcastInDim S1x1x4096 ![2] bcast_S4096_S1x1x4096_2 bias)))
    (Host.dotGeneral dot_S4x2048x64_S4x64x4096_S4x2048x4096_2_1_1_2_0_0 none
      (Host.dotGeneral dot_S4x2048x4096_S4x4096x64_S4x2048x64_2_1_1_2_0_0 none x (takeA A ids))
      (takeB B ids))

end Cert.ReferenceIdeal.RefTerm

end
-- ==== Proof.RefRun.lean ====
/-
  The reference program as a straight line of host operations, and its run.

  The reference computes the base product `x · Wᵀ`, adds the bias broadcast over batch and sequence, selects each
  sequence's adapter slabs of `A` and `B` by the id words (a wrap of negative ids, a clamped gather of whole slabs, and
  a select that keeps the gathered slab where the wrapped id lies in `[0, 7]`), multiplies the tokens into the rank
  space and out of it, and adds the two. Its two selections are module-local functions; unfolded at their calls the
  program is one line of fifty-three operations, each writing its own buffer. Run from any memory, every execution
  terminates with the result buffer at the composed term `refOut` of the six argument arrays, the arguments unchanged.
-/
import proofs.«108454_g45956150067888_cont_8to1_c_53_5_alg».proof.Proof.Gen.ReferenceIdeal
import proofs.«108454_g45956150067888_cont_8to1_c_53_5_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- The id words, the two adapter tables, as the typed references the selections are called on. -/
abbrev a1 : TRef sig ⟨S4, .i32⟩ := .of main_arg1
abbrev a4 : TRef sig ⟨S8x4096x64, .f32⟩ := .of main_arg4
abbrev a5 : TRef sig ⟨S8x64x4096, .f32⟩ := .of main_arg5

/-- The program's fifty-three operations, in order: the base product and the bias (four), the selection of the `A`
    slabs (twenty-three, the wrap's select among them), the selection of the `B` slabs (twenty-three), the two
    low-rank products and the final sum (three). -/
abbrev ops : List (HloOp τ sig (Elt F)) :=
  [ binary main_arg0 main_arg2 main_v0 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v1 (broadcastInDim S1x1x4096 ![2] bcast_S4096_S1x1x4096_2 : (⟨S4096, .f32⟩ : BufTy).Contents (Elt F) → (⟨S1x1x4096, .f32⟩ : BufTy).Contents (Elt F)),
    unary main_v1 main_v2 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v0 main_v2 main_v3 (addf : (⟨S4x2048x4096, .f32⟩ : BufTy).Contents (Elt F) → (⟨S4x2048x4096, .f32⟩ : BufTy).Contents (Elt F) → (⟨S4x2048x4096, .f32⟩ : BufTy).Contents (Elt F)),
    TRef.nullary main_call0.c (constantI S_ 32 0#32),
    TRef.unary main_call0.c main_call0.v0 (broadcastInDim S4 ![] bcast_S_S4),
    TRef.binary a1 main_call0.v0 main_call0.v1 (cmpi .slt),
    TRef.nullary main_call0.c_0 (constantI S_ 32 8#32),
    TRef.unary main_call0.c_0 main_call0.v2 (broadcastInDim S4 ![] bcast_S_S4),
    TRef.binary a1 main_call0.v2 main_call0.v3 addi,
    TRef.ternary main_call0.v1 main_call0.v3 a1 main_call0.call0.v0 select,
    TRef.unary main_call0.call0.v0 main_call0.v5 (broadcastInDim S4x1 ![0] bcast_S4_S4x1_0),
    TRef.nullary main_call0.c_1 (constantI S1 32 7#32),
    TRef.nullary main_call0.c_2 (constantI S_ 32 0#32),
    TRef.unary main_call0.c_2 main_call0.v6 (broadcastInDim S4x1 ![] bcast_S_S4x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S4x1 ![0, 1] bcast_S1x1_S4x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x1_S4_d1 h_S_),
    TRef.binary a4 main_call0.v5 main_call0.v13 (fun x i => Host.gather gather_S8x4096x64_S4x1_S4x4096x64_12_0_n_n_0_1_1409664 x i),
    TRef.unary main_call0.v12 main_call0.v14 (broadcastInDim S4x4096x64 ![0] bcast_S4_S4x4096x64_0),
    TRef.nullary main_call0.cst (constant S_ .f32 0x7FC00000#32),
    TRef.unary main_call0.cst main_call0.v15 (broadcastInDim S4x4096x64 ![] bcast_S_S4x4096x64),
    TRef.ternary main_call0.v14 main_call0.v13 main_call0.v15 main_call0.v16 select,
    TRef.nullary main_call1.c (constantI S_ 32 0#32),
    TRef.unary main_call1.c main_call1.v0 (broadcastInDim S4 ![] bcast_S_S4),
    TRef.binary a1 main_call1.v0 main_call1.v1 (cmpi .slt),
    TRef.nullary main_call1.c_0 (constantI S_ 32 8#32),
    TRef.unary main_call1.c_0 main_call1.v2 (broadcastInDim S4 ![] bcast_S_S4),
    TRef.binary a1 main_call1.v2 main_call1.v3 addi,
    TRef.ternary main_call1.v1 main_call1.v3 a1 main_call1.call0.v0 select,
    TRef.unary main_call1.call0.v0 main_call1.v5 (broadcastInDim S4x1 ![0] bcast_S4_S4x1_0),
    TRef.nullary main_call1.c_1 (constantI S1 32 7#32),
    TRef.nullary main_call1.c_2 (constantI S_ 32 0#32),
    TRef.unary main_call1.c_2 main_call1.v6 (broadcastInDim S4x1 ![] bcast_S_S4x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S4x1 ![0, 1] bcast_S1x1_S4x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S4x1_S4_d1 h_S_),
    TRef.binary a5 main_call1.v5 main_call1.v13 (fun x i => Host.gather gather_S8x64x4096_S4x1_S4x64x4096_12_0_n_n_0_1_1644096 x i),
    TRef.unary main_call1.v12 main_call1.v14 (broadcastInDim S4x64x4096 ![0] bcast_S4_S4x64x4096_0),
    TRef.nullary main_call1.cst (constant S_ .f32 0x7FC00000#32),
    TRef.unary main_call1.cst main_call1.v15 (broadcastInDim S4x64x4096 ![] bcast_S_S4x64x4096),
    TRef.ternary main_call1.v14 main_call1.v13 main_call1.v15 main_call1.v16 select,
    binary main_arg0 main_v4 main_v6 ((fun l r => Host.dotGeneral dot_S4x2048x4096_S4x4096x64_S4x2048x64_2_1_1_2_0_0 none l r) : (⟨S4x2048x4096, .f32⟩ : BufTy).Contents (Elt F) → (⟨S4x4096x64, .f32⟩ : BufTy).Contents (Elt F) → (⟨S4x2048x64, .f32⟩ : BufTy).Contents (Elt F)),
    binary main_v6 main_v5 main_v7 ((fun l r => Host.dotGeneral dot_S4x2048x64_S4x64x4096_S4x2048x4096_2_1_1_2_0_0 none l r) : (⟨S4x2048x64, .f32⟩ : BufTy).Contents (Elt F) → (⟨S4x64x4096, .f32⟩ : BufTy).Contents (Elt F) → (⟨S4x2048x4096, .f32⟩ : BufTy).Contents (Elt F)),
    binary main_v3 main_v7 main_v8 (addf : (⟨S4x2048x4096, .f32⟩ : BufTy).Contents (Elt F) → (⟨S4x2048x4096, .f32⟩ : BufTy).Contents (Elt F) → (⟨S4x2048x4096, .f32⟩ : BufTy).Contents (Elt F)) ]

-- fifty-three binds re-associated: the rewrite under the chain recurses once per statement
set_option maxRecDepth 2048 in
/-- The program is that straight line: the selections' definitions unfolded at their calls, both sides are one chain
    of steps once sequencing is reassociated. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    binary_bufs_sub .., binary_bufs_sub .., binary_bufs_sub ..⟩

/-- From any memory with zero counters every weakly fair execution of the program terminates, and every final state
    has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result buffer, and the arguments -/

/-- The fold at the result buffer is that term of the contents at the six argument buffers. -/
theorem out_eq (V : Valuation τ sig (Elt F)) :
    after ops V (main_v8 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- No operation writes an argument buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

/-- The run: the result buffer ends at `refOut` of the launch contents of the six arguments, which end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v8).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.ReferenceIdeal.RefRun

end
-- ==== Proof.LibGather3.lean ====
/-
  A gather of whole slabs of a rank-3 array, read at one element.

  A gather of whole `P × Q` slabs of an `N × P × Q` array at an `E × 1` column of start indices (the first axis is
  collapsed and indexed, the other two are kept whole) reads the operand at the start index, taken as a signed
  integer and clamped into `[0, N − 1]`, on the first axis, and at the result's own two trailing coordinates on the
  other two.

  The lemma is generic in the extents and the index width; the dimension numbers are given by equations on the
  record's fields, so it applies to any record with those fields.
-/
import Idealize.ShloMosaic.PureOps.Ideal
import Idealize.ShloMosaic.Lib.ValueIdx

open Idealize.ShloMosaic Idealize.ShloMosaic.ValueIdx

namespace Cert.Gather3

variable {α : Type}

/-- The dimension numbers of a gather of whole `P × Q` slabs of an `N × P × Q` operand at an `E × 1` column of
    start indices. -/
private abbrev slabDims (N E P Q : Nat)
    (wf : GatherDims.WF ⟨3, ![N, P, Q]⟩ ⟨2, ![E, 1]⟩ ⟨3, ![E, P, Q]⟩ [1, 2] [0] [] [0] [] 1 ![1, P, Q]) :
    GatherDims ⟨3, ![N, P, Q]⟩ ⟨2, ![E, 1]⟩ ⟨3, ![E, P, Q]⟩ where
  offsetDims := [1, 2]
  collapsedSliceDims := [0]
  operandBatchingDims := []
  startIndicesBatchingDims := []
  startIndexMap := [0]
  indexVectorDim := 1
  sliceSizes := ![1, P, Q]
  wf := wf

private theorem gather_slabs_lit {N E P Q w : Nat} (hN : 0 < N)
    (wf : GatherDims.WF ⟨3, ![N, P, Q]⟩ ⟨2, ![E, 1]⟩ ⟨3, ![E, P, Q]⟩ [1, 2] [0] [] [0] [] 1 ![1, P, Q])
    (x : (⟨3, ![N, P, Q]⟩ : Shape).Idx → α) (idx : IVec ⟨2, ![E, 1]⟩ w) (e : Fin E) (p : Fin P) (q : Fin Q) :
    Host.gather (slabDims N E P Q wf) x idx (ix3 e p q)
      = x (ix3 (⟨min (idx (ix2 e (0 : Fin 1))).toInt.toNat (N - 1), by omega⟩ : Fin N) p q) := by
  unfold Host.gather
  congr 1
  funext a
  refine Fin.ext ?_
  match a with
  | ⟨0, _⟩ =>
    -- the collapsed axis: the clamped start index, no batching and no offset coordinate
    show (slabDims N E P Q wf).start (ix3 e p q) idx 0 + (slabDims N E P Q wf).batchCoord (ix3 e p q) 0
      + (slabDims N E P Q wf).offCoord (ix3 e p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabDims N E P Q wf).startIndexMap from List.mem_singleton.mpr rfl)]
    have hsi : (slabDims N E P Q wf).siIdx (ix3 e p q) ⟨List.idxOf (0 : Fin 3) (slabDims N E P Q wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the first kept axis: start 0, no batching coordinate, the offset coordinate is the result's second
    show (slabDims N E P Q wf).start (ix3 e p q) idx 1 + (slabDims N E P Q wf).batchCoord (ix3 e p q) 1
      + (slabDims N E P Q wf).offCoord (ix3 e p q) 1 = p.val
    rw [GatherDims.batchCoord_eq_zero _ _ _ List.not_mem_nil]
    have hs : (slabDims N E P Q wf).start (ix3 e p q) idx 1 = 0 := by
      unfold GatherDims.start
      rw [dif_neg (show (1 : Fin 3) ∉ ([0] : List (Fin 3)) by decide)]
    have ho : (slabDims N E P Q wf).offCoord (ix3 e p q) 1 = p.val := by
      unfold GatherDims.offCoord
      rw [dif_pos ((GatherDims.mem_sKept _ _).mpr
        ⟨(show (1 : Fin 3) ∉ ([0] : List (Fin 3)) by decide), List.not_mem_nil⟩)]
      rfl
    rw [hs, ho]; omega
  | ⟨2, _⟩ =>
    -- the second kept axis: start 0, no batching coordinate, the offset coordinate is the result's third
    show (slabDims N E P Q wf).start (ix3 e p q) idx 2 + (slabDims N E P Q wf).batchCoord (ix3 e p q) 2
      + (slabDims N E P Q wf).offCoord (ix3 e p q) 2 = q.val
    rw [GatherDims.batchCoord_eq_zero _ _ _ List.not_mem_nil]
    have hs : (slabDims N E P Q wf).start (ix3 e p q) idx 2 = 0 := by
      unfold GatherDims.start
      rw [dif_neg (show (2 : Fin 3) ∉ ([0] : List (Fin 3)) by decide)]
    have ho : (slabDims N E P Q wf).offCoord (ix3 e p q) 2 = q.val := by
      unfold GatherDims.offCoord
      rw [dif_pos ((GatherDims.mem_sKept _ _).mpr
        ⟨(show (2 : Fin 3) ∉ ([0] : List (Fin 3)) by decide), List.not_mem_nil⟩)]
      rfl
    rw [hs, ho]; omega

/-- A gather of whole `P × Q` slabs of an `N × P × Q` operand at an `E × 1` column of start indices, read at
    `(e, p, q)`: the operand's slab at the start index `idx[e, 0]`, read signed and clamped into `[0, N − 1]`, at
    `(p, q)`. -/
theorem gather_slabs_apply {N E P Q w : Nat} (hN : 0 < N)
    (d : GatherDims ⟨3, ![N, P, Q]⟩ ⟨2, ![E, 1]⟩ ⟨3, ![E, P, Q]⟩)
    (hod : d.offsetDims = [1, 2]) (hcd : d.collapsedSliceDims = [0]) (hob : d.operandBatchingDims = [])
    (hsb : d.startIndicesBatchingDims = []) (hsm : d.startIndexMap = [0]) (hiv : d.indexVectorDim = 1)
    (hss : d.sliceSizes = ![1, P, Q])
    (x : (⟨3, ![N, P, Q]⟩ : Shape).Idx → α) (idx : IVec ⟨2, ![E, 1]⟩ w) (e : Fin E) (p : Fin P) (q : Fin Q) :
    Host.gather d x idx (ix3 e p q)
      = x (ix3 (⟨min (idx (ix2 e (0 : Fin 1))).toInt.toNat (N - 1), by omega⟩ : Fin N) p q) := by
  obtain ⟨od, cd, ob, sb, sm, iv, ss, wf⟩ := d
  simp only at hod hcd hob hsb hsm hiv hss
  subst hod hcd hob hsb hsm hiv hss
  exact gather_slabs_lit hN wf x idx e p q

end Cert.Gather3
-- ==== Proof.RefStages.lean ====
/-
  The reference's term read at one element.

  Under the range hypothesis on the id words (each lies in `[0, 8)` read signed) the wrap of negative ids changes
  nothing, every range bit is set, the gather's clamp changes nothing, and each sequence's selected slab is the adapter
  table's slab at its id. The three products read as sums over the contracted coordinate, the bias broadcast reads the
  bias at the output feature, and the term at `(b, s, o)` is the layer's output there, the three summands regrouped
  (addition of extended reals is commutative and associative; nothing is assumed finite).
-/
import proofs.«108454_g45956150067888_cont_8to1_c_53_5_alg».proof.Proof.RefTerm
import proofs.«108454_g45956150067888_cont_8to1_c_53_5_alg».proof.Proof.Spec
import proofs.«108454_g45956150067888_cont_8to1_c_53_5_alg».proof.Proof.LibGather3
import Idealize.ShloMosaic.Lib.StackMember
import Idealize.ShloMosaic.Lib.ReduceAll
import Idealize.ShloMosaic.Lib.IdealHost
import Idealize.ShloMosaic.Lib.Pipeline.Value

noncomputable section

namespace Cert.ReferenceIdeal.RefStages

open Cert.ReferenceIdeal Cert.ReferenceIdeal.Gen Cert.ReferenceIdeal.RefTerm Cert.MultiLora
open Idealize.ShloMosaic Idealize.ShloMosaic.ValueIdx Idealize.ShloMosaic.StackMember
open scoped BigOperators

/-! ## The id column and the range bits -/

/-- A left fold by `and` from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_one f l _ ?_ (fun n hn => hl n (List.mem_cons_of_mem _ hn))
    exact IntOp.andi_eq_one.2 ⟨h, hl a List.mem_cons_self⟩

variable {ids : (⟨1, ![4]⟩ : Shape).Idx → BitVec 32}

/-- With every id in range the wrap is the identity: the column's entry for sequence `b` is its id word. -/
theorem idCol_apply (h : IdsInRange ids) (b : Fin 4) (z : Fin 1) :
    idCol (F := Ideal) ids (ix2 b z) = ids (ix1 b) := by
  unfold idCol
  refine (broadcastInDim_apply _ _ _ (ix2 b z) (ix1 b) (fun a => match a with | ⟨0, _⟩ => rfl)).trans ?_
  rw [select_apply]
  have hlt : cmpi .slt ids (broadcastInDim S4 ![] bcast_S_S4 (constantI S_ 32 0#32)) (ix1 b) = 0#1 := by
    refine eq_zero_of_ne_one (fun e => ?_)
    have e' : (ids (ix1 b)).toInt < (0#32 : BitVec 32).toInt := IntOp.cmpi_slt.1 e
    have := (h b).1
    rw [show (0#32 : BitVec 32).toInt = 0 from by decide] at e'
    omega
  rw [hlt, select_zero]

/-- With every id in range every range bit is set. -/
theorem idOk_apply (h : IdsInRange ids) (j : (⟨1, ![4]⟩ : Shape).Idx) : idOk (F := Ideal) ids j = 1#1 := by
  unfold idOk
  rw [Host.reduce_eq_foldl]
  refine foldl_andi_one _ _ _ rfl (fun i _ => ?_)
  obtain ⟨b, z, rfl⟩ : ∃ (b : Fin 4) (z : Fin 1), i = ix2 b z := ⟨i 0, i 1, eq_ix2 i⟩
  show IntOp.andi (IntOp.cmpi .sge (idCol (F := Ideal) ids (ix2 b z)) 0#32) (IntOp.cmpi .sle (idCol (F := Ideal) ids (ix2 b z)) 7#32) = 1#1
  rw [idCol_apply h b z]
  have h0 := (h b).1
  have h8 := (h b).2
  refine IntOp.andi_eq_one.2 ⟨IntOp.cmpi_sge.2 ?_, IntOp.cmpi_sle.2 ?_⟩
  · rw [show (0#32 : BitVec 32).toInt = 0 from by decide]; exact h0
  · rw [show (7#32 : BitVec 32).toInt = 7 from by decide]; omega

/-! ## The selected slabs -/

/-- The clamped start index of an id in range is the adapter the id names. -/
theorem clamp_eq_adapter (h : IdsInRange ids) (b : Fin 4) (w : BitVec 32) (hw : w = ids (ix1 b)) :
    min w.toInt.toNat (8 - 1) = (adapter ids b).val := by
  subst hw
  obtain ⟨h8, he⟩ := toNat_of_range _ (h b).1 (h b).2
  show min (ids (ix1 b)).toInt.toNat (8 - 1) = (ids (ix1 b)).toNat % 8
  rw [he, Int.toNat_natCast]
  omega

/-- With every id in range, sequence `b`'s slab of `A` is the table's slab at its adapter. -/
theorem takeA_apply (h : IdsInRange ids) (A : (⟨3, ![8, 4096, 64]⟩ : Shape).Idx → EReal) (b : Fin 4) (d : Fin 4096) (k : Fin 64) :
    takeA (F := Ideal) A ids (ix3 b d k) = A (ix3 (adapter ids b) d k) := by
  unfold takeA
  rw [select_apply]
  have hb : broadcastInDim S4x4096x64 ![0] bcast_S4_S4x4096x64_0 (idOk (F := Ideal) ids) (ix3 b d k) = 1#1 :=
    (broadcastInDim_apply _ _ _ (ix3 b d k) (ix1 b) (fun a => match a with | ⟨0, _⟩ => rfl)).trans (idOk_apply h _)
  rw [hb, select_one]
  refine (Cert.Gather3.gather_slabs_apply (N := 8) (by decide) _ rfl rfl rfl rfl rfl rfl rfl A (idCol (F := Ideal) ids) b d k).trans ?_
  exact congrArg (fun l => A (ix3 l d k)) (Fin.ext (clamp_eq_adapter h b _ (idCol_apply h b 0)))

/-- With every id in range, sequence `b`'s slab of `B` is the table's slab at its adapter. -/
theorem takeB_apply (h : IdsInRange ids) (B : (⟨3, ![8, 64, 4096]⟩ : Shape).Idx → EReal) (b : Fin 4) (k : Fin 64) (o : Fin 4096) :
    takeB (F := Ideal) B ids (ix3 b k o) = B (ix3 (adapter ids b) k o) := by
  unfold takeB
  rw [select_apply]
  have hb : broadcastInDim S4x64x4096 ![0] bcast_S4_S4x64x4096_0 (idOk (F := Ideal) ids) (ix3 b k o) = 1#1 :=
    (broadcastInDim_apply _ _ _ (ix3 b k o) (ix1 b) (fun a => match a with | ⟨0, _⟩ => rfl)).trans (idOk_apply h _)
  rw [hb, select_one]
  refine (Cert.Gather3.gather_slabs_apply (N := 8) (by decide) _ rfl rfl rfl rfl rfl rfl rfl B (idCol (F := Ideal) ids) b k o).trans ?_
  exact congrArg (fun l => B (ix3 l k o)) (Fin.ext (clamp_eq_adapter h b _ (idCol_apply h b 0)))

/-! ## The base product -/

section Dot
variable {G m k n : Nat} {φ₁ φ₂ : FTy}

/-- A stack of `G` matrices `m × k` times the transpose of one `n × k` matrix — `dot_general` contracting the last
    axis of each, no batch axis — read at an index: the sum over the contracted coordinate. At the ideal values. -/
theorem dotGeneral_rowsT_apply
    (w : DotDims.WF ⟨3, ![G, m, k]⟩ ⟨2, ![n, k]⟩ ⟨3, ![G, m, n]⟩ [2] [1] [0, 1] [0] [] [])
    (prec : Option ContractPrecision) (X : FVec Ideal ⟨3, ![G, m, k]⟩ φ₁) (W : FVec Ideal ⟨2, ![n, k]⟩ φ₂)
    (g : Fin G) (a : Fin m) (b : Fin n) :
    Host.dotGeneral (⟨[2], [1], [0, 1], [0], [], [], w⟩ : DotDims _ _ _) prec X W (ix3 g a b)
      = ∑ c : Fin k, X (ix3 g a c) * W (ix2 b c) := by
  show FloatOps.dotGeneral _ prec _ X W (ix3 g a b) = _
  rw [Ideal.dotGeneral_apply,
    ← Equiv.sum_comp (contrEquiv1 (⟨[2], [1], [0, 1], [0], [], [], w⟩ : DotDims _ _ _) k rfl rfl).symm]
  refine Finset.sum_congr rfl fun c _ => ?_
  have c3 := contrEquiv1_symm_val
    (⟨[2], [1], [0, 1], [0], [], [], w⟩ : DotDims ⟨3, ![G, m, k]⟩ ⟨2, ![n, k]⟩ ⟨3, ![G, m, n]⟩) k rfl rfl c
  have l3 : (⟨[2], [1], [0, 1], [0], [], [], w⟩ : DotDims ⟨3, ![G, m, k]⟩ ⟨2, ![n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [1], [0, 1], [0], [], [], w⟩ : DotDims ⟨3, ![G, m, k]⟩ ⟨2, ![n, k]⟩ ⟨3, ![G, m, n]⟩).rhsIdx (ix3 g a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c3
  rw [l3, r3]

end Dot

/-! ## The term at an element -/

/-- The reference's term at `(b, s, o)` is the layer's output there. -/
theorem refOut_apply (h : IdsInRange ids) (x : (⟨3, ![4, 2048, 4096]⟩ : Shape).Idx → EReal)
    (W : (⟨2, ![4096, 4096]⟩ : Shape).Idx → EReal) (bias : (⟨1, ![4096]⟩ : Shape).Idx → EReal)
    (A : (⟨3, ![8, 4096, 64]⟩ : Shape).Idx → EReal) (B : (⟨3, ![8, 64, 4096]⟩ : Shape).Idx → EReal)
    (b : Fin 4) (s : Fin 2048) (o : Fin 4096) :
    refOut (F := Ideal) x ids W bias A B (ix3 b s o) = outAt x ids W bias A B b s o := by
  unfold refOut outAt lowRank
  rw [addf_apply, addf_apply]
  have hbase : Host.dotGeneral (F := Ideal) (φ₁ := .f32) (φ₂ := .f32) dot_S4x2048x4096_S4096x4096_S4x2048x4096_2_1_01_0_n_n none x W (ix3 b s o) = ∑ d : Fin 4096, x (ix3 b s d) * W (ix2 o d) :=
    dotGeneral_rowsT_apply (φ₁ := .f32) (φ₂ := .f32) dot_S4x2048x4096_S4096x4096_S4x2048x4096_2_1_01_0_n_n_wf none x W b s o
  have hbias : broadcastInDim S4x2048x4096 ![0, 1, 2] bcast_S1x1x4096_S4x2048x4096_0_1_2
      (broadcastInDim S1x1x4096 ![2] bcast_S4096_S1x1x4096_2 bias) (ix3 b s o) = bias (ix1 o) :=
    (broadcastInDim_apply _ _ _ (ix3 b s o) (ix3 (0 : Fin 1) (0 : Fin 1) o)
      (fun a => match a with | ⟨0, _⟩ => rfl | ⟨1, _⟩ => rfl | ⟨2, _⟩ => rfl)).trans
      (broadcastInDim_apply _ _ _ (ix3 (0 : Fin 1) (0 : Fin 1) o) (ix1 o) (fun a => match a with | ⟨0, _⟩ => rfl))
  have hlow : ∀ k : Fin 64, Host.dotGeneral (F := Ideal) (φ₁ := .f32) (φ₂ := .f32) dot_S4x2048x4096_S4x4096x64_S4x2048x64_2_1_1_2_0_0 none x (takeA (F := Ideal) A ids) (ix3 b s k)
      = ∑ d : Fin 4096, x (ix3 b s d) * A (ix3 (adapter ids b) d k) := fun k =>
    (dotGeneral_stack_apply (φ₁ := .f32) (φ₂ := .f32) dot_S4x2048x4096_S4x4096x64_S4x2048x64_2_1_1_2_0_0_wf none x (takeA (F := Ideal) A ids) b s k).trans
      (Finset.sum_congr rfl fun d _ => by rw [takeA_apply h])
  have hup : Host.dotGeneral (F := Ideal) (φ₁ := .f32) (φ₂ := .f32) dot_S4x2048x64_S4x64x4096_S4x2048x4096_2_1_1_2_0_0 none
      (Host.dotGeneral (F := Ideal) (φ₁ := .f32) (φ₂ := .f32) dot_S4x2048x4096_S4x4096x64_S4x2048x64_2_1_1_2_0_0 none x (takeA (F := Ideal) A ids)) (takeB (F := Ideal) B ids) (ix3 b s o)
      = ∑ k : Fin 64, (∑ d : Fin 4096, x (ix3 b s d) * A (ix3 (adapter ids b) d k)) * B (ix3 (adapter ids b) k o) :=
    (dotGeneral_stack_apply (φ₁ := .f32) (φ₂ := .f32) dot_S4x2048x64_S4x64x4096_S4x2048x4096_2_1_1_2_0_0_wf none _ (takeB (F := Ideal) B ids) b s o).trans
      (Finset.sum_congr rfl fun k _ => by rw [hlow k, takeB_apply h])
  rw [hbase, hbias, hup]
  exact add_right_comm _ _ _

/-- Under the range hypothesis the reference's term is the layer's output array. -/
theorem refOut_eq_out (h : IdsInRange ids) (x : (⟨3, ![4, 2048, 4096]⟩ : Shape).Idx → EReal)
    (W : (⟨2, ![4096, 4096]⟩ : Shape).Idx → EReal) (bias : (⟨1, ![4096]⟩ : Shape).Idx → EReal)
    (A : (⟨3, ![8, 4096, 64]⟩ : Shape).Idx → EReal) (B : (⟨3, ![8, 64, 4096]⟩ : Shape).Idx → EReal) :
    refOut (F := Ideal) x ids W bias A B = Cert.MultiLora.out x ids W bias A B := by
  funext j
  obtain ⟨b, s, o, rfl⟩ : ∃ (b : Fin 4) (s : Fin 2048) (o : Fin 4096), j = ix3 b s o := ⟨j 0, j 1, j 2, eq_ix3 j⟩
  rw [refOut_apply h, out_ix3]

end Cert.ReferenceIdeal.RefStages

end
-- ==== Proof.RefValue.lean ====
/-
  The reference's run and value.

  From any memory whose id words lie in `[0, 8)`, every weakly fair execution of the reference program terminates; its
  result buffer then holds the multi-LoRA layer's output array of the six argument arrays, and the argument buffers
  hold what they held at launch. The run gives the result buffer as the program's composed term; under the range
  hypothesis that term is the layer's output, element by element.
-/
import proofs.«108454_g45956150067888_cont_8to1_c_53_5_alg».proof.Proof.RefRun
import proofs.«108454_g45956150067888_cont_8to1_c_53_5_alg».proof.Proof.RefStages

noncomputable section

namespace Cert.ReferenceIdeal.RefValue

open Idealize.ShloMosaic Idealize.SL.Sem

/-- The reference runs, ends with the layer's output in its result buffer, and leaves its arguments unchanged. -/
theorem run (m : (ℓ : Loc Cert.ReferenceIdeal.nD Cert.ReferenceIdeal.τ Cert.ReferenceIdeal.sig) → Buf (Elt Ideal) ℓ) (ρ : Dev Cert.ReferenceIdeal.nD → PrngReg)
    (hids : ∀ c : Dev Cert.ReferenceIdeal.nD, Cert.MultiLora.IdsInRange (m ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v8) = Cert.MultiLora.out (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run _ _ _).mono
    (fun _ h c => ⟨(h c).1.trans (Cert.ReferenceIdeal.RefStages.refOut_eq_out (hids c) _ _ _ _ _), (h c).2⟩)
    (Cert.ReferenceIdeal.RefRun.run m ρ)

end Cert.ReferenceIdeal.RefValue

end
-- ==== Proof.lean ====
/-
  A multi-LoRA linear layer computed by one fused kernel equals its plain reference over the extended reals.

  Both programs compute, for sequence `b`, token `s` and out feature `o`,

      (∑ d, x[b,s,d] · W[o,d]) + (∑ k, (∑ d, x[b,s,d] · A[l,d,k]) · B[l,k,o]) + bias[o],      l = the adapter of sequence b,

  with the low-rank product grouped the same way on both sides (first into the 64-dimensional rank space, then out of
  it). The kernel works tile by tile — 8 token tiles of 1024 rows by 16 out-feature tiles of 256 columns — keeps the
  token tile and its rank-space projection in two buffers carried across the out-feature tiles of one token tile, and
  adds the bias last; the reference adds the bias to the base product first and the low-rank update last. Over the
  extended reals addition is commutative and associative, so the two orders agree, and no finiteness is needed.
  Format conversions are the identity there, and a matrix product into a zero accumulator is the plain sum.

  The adapter of a sequence is read from a table of per-tile ids that selects which `A` and `B` slabs a step is
  handed; the slab must exist, so the statement is made for adapter ids in `[0, 8)`, which the precondition says. For
  such ids the reference's selection (wrap a negative index, clamp, mask out-of-range rows) is the plain selection.

  The three frames: the two kernel programs run under the side condition that every table-indexed block lies inside
  its array, which holds for ids in range; the reference's frame is its run with the value dropped.
-/
import proofs.«108454_g45956150067888_cont_8to1_c_53_5_alg».proof.Defs
import proofs.«108454_g45956150067888_cont_8to1_c_53_5_alg».proof.Proof.Gen.Kernel
import proofs.«108454_g45956150067888_cont_8to1_c_53_5_alg».proof.Proof.Gen.Kernel.Frame
import proofs.«108454_g45956150067888_cont_8to1_c_53_5_alg».proof.Proof.Gen.KernelIdeal
import proofs.«108454_g45956150067888_cont_8to1_c_53_5_alg».proof.Proof.Gen.KernelIdeal.Frame
import proofs.«108454_g45956150067888_cont_8to1_c_53_5_alg».proof.Proof.Gen.ReferenceIdeal
import proofs.«108454_g45956150067888_cont_8to1_c_53_5_alg».proof.Proof.Gen.Pre_finite_inputs
import proofs.«108454_g45956150067888_cont_8to1_c_53_5_alg».proof.Proof.PreIds
import proofs.«108454_g45956150067888_cont_8to1_c_53_5_alg».proof.Proof.OkKernel
import proofs.«108454_g45956150067888_cont_8to1_c_53_5_alg».proof.Proof.OkKernelIdeal
import proofs.«108454_g45956150067888_cont_8to1_c_53_5_alg».proof.Proof.KValue
import proofs.«108454_g45956150067888_cont_8to1_c_53_5_alg».proof.Proof.RefValue
import Idealize.ShloMosaic.Adequacy
import Idealize.ShloMosaic.Init

noncomputable section

namespace Cert.Proof

open Idealize.ShloMosaic Idealize.SL.Sem

/-- The word-level kernel runs and leaves its arguments unchanged: its table-indexed blocks lie inside their arrays. -/
theorem frame_kernel : Cert.frame_Kernel (hKernel := Cert.Kernel.Gen.facts) (hPre_finite_inputs := Cert.Pre_finite_inputs.Gen.facts) :=
  fun m ρ h => Cert.Kernel.Gen.frame m ρ (Cert.Kernel.OkOfPre.ok_of_pre m h)

/-- The same for the idealized kernel. -/
theorem frame_kernelIdeal : Cert.frame_KernelIdeal (hKernelIdeal := Cert.KernelIdeal.Gen.facts) (hPre_finite_inputs := Cert.Pre_finite_inputs.Gen.facts) :=
  fun m ρ h => Cert.KernelIdeal.Gen.frame m ρ (Cert.KernelIdeal.OkOfPre.ok_of_pre m h)

/-- The reference runs and leaves its arguments unchanged: its run, with the value dropped. -/
theorem frame_reference : Cert.frame_ReferenceIdeal (hReferenceIdeal := Cert.ReferenceIdeal.Gen.facts) (hPre_finite_inputs := Cert.Pre_finite_inputs.Gen.facts) :=
  fun m ρ h => (θ_run Cert.ReferenceIdeal.defs _ _).mono (fun _ hr c => (hr c).2)
    (Cert.ReferenceIdeal.RefValue.run m ρ (fun c => Cert.MultiLora.ids_of_pre (F := Ideal) _ _ _ _ _ _ (h c)))

/-- The idealization rewrote nothing. -/
theorem preserves : Cert.preserves_Kernel_KernelIdeal := trivial

/-- From memories agreeing on the arguments, both idealized programs end with the layer's output of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hO := Cert.KernelIdeal.OkOfPre.ok_of_pre m hpre
  have hids : ∀ c : Dev Cert.ReferenceIdeal.nD, Cert.MultiLora.IdsInRange
      (m' ((c.tc : Thread Cert.ReferenceIdeal.nD Cert.ReferenceIdeal.τ).loc Cert.ReferenceIdeal.main_arg1)) := fun c => by
    rw [(hagree c).2.1]
    exact Cert.MultiLora.ids_of_pre (F := Ideal) _ _ _ _ _ _ (hpre c)
  refine ⟨_, Cert.KernelIdeal.KValue.run m ρ hO, ?_⟩
  refine (θ_run Cert.ReferenceIdeal.defs _ _).mono (fun _ hr c => ⟨(hr c).1.trans ?_, (hr c).2⟩)
    (Cert.ReferenceIdeal.RefValue.run m' ρ' hids)
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
